-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x1000 : Shape := ⟨2, ![512, 1000]⟩
abbrev S1000 : Shape := ⟨1, ![1000]⟩
abbrev S1000x500 : Shape := ⟨2, ![1000, 500]⟩
abbrev S500 : Shape := ⟨1, ![500]⟩
abbrev S500x250 : Shape := ⟨2, ![500, 250]⟩
abbrev S250 : Shape := ⟨1, ![250]⟩
abbrev S250x1 : Shape := ⟨2, ![250, 1]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_
  bcast_S_S1000x500 : S_.BroadcastsInDim S1000x500 (![] : Fin 0 → Fin S1000x500.rank)
  reducesTo_S1000x500_S_d0_1 : S1000x500.ReducesTo [0, 1] S_
  bcast_S_S500 : S_.BroadcastsInDim S500 (![] : Fin 0 → Fin S500.rank)
  reducesTo_S500_S_d0 : S500.ReducesTo [0] S_
  bcast_S_S500x250 : S_.BroadcastsInDim S500x250 (![] : Fin 0 → Fin S500x250.rank)
  reducesTo_S500x250_S_d0_1 : S500x250.ReducesTo [0, 1] S_
  bcast_S_S250 : S_.BroadcastsInDim S250 (![] : Fin 0 → Fin S250.rank)
  reducesTo_S250_S_d0 : S250.ReducesTo [0] S_
  bcast_S_S250x1 : S_.BroadcastsInDim S250x1 (![] : Fin 0 → Fin S250x1.rank)
  reducesTo_S250x1_S_d0_1 : S250x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S250 .f32) (main_arg8 : FVec F S250x1 .f32) (main_arg9 : FVec F S1 .f32) (main_v33 : IVec S_ 1) : IVec S_ 1 :=
  let main_v34 : FVec F S250 .f32 := Host.absf main_arg7
  let main_cst_12 : FVec F S_ .f32 := constant S_ .f32 0x7F800000#32
  let main_v35 : FVec F S250 .f32 := broadcastInDim S250 ![] bcast_S_S250 main_cst_12
  let main_v36 : IVec S250 1 := cmpf .olt main_v34 main_v35
  let main_c_13 : IVec S_ 1 := constantI S_ 1 1#1
  let main_v37 : IVec S_ 1 := (fun x v => Host.reduce IntOp.andi x v reducesTo_S250_S_d0 h_S_) main_v36 main_c_13
  let main_v38 : IVec S_ 1 := andi main_v33 main_v37
  let main_v39 : FVec F S250x1 .f32 := Host.absf main_arg8
  let main_cst_14 : FVec F S_ .f32 := constant S_ .f32 0x7F800000#32
  let main_v40 : FVec F S250x1 .f32 := broadcastInDim S250x1 ![] bcast_S_S250x1 main_cst_14
  let main_v41 : IVec S250x1 1 := cmpf .olt main_v39 main_v40
  let main_c_15 : IVec S_ 1 := constantI S_ 1 1#1
  let main_v42 : IVec S_ 1 := (fun x v => Host.reduce IntOp.andi x v reducesTo_S250x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1000x500 .f32) (main_arg5 : FVec F S500 .f32) (main_arg6 : FVec F S500x250 .f32) (main_arg7 : FVec F S250 .f32) (main_arg8 : FVec F S250x1 .f32) (main_arg9 : FVec F S1 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000x500 .f32 := Host.absf main_arg4
  let main_cst_6 : FVec F S_ .f32 := constant S_ .f32 0x7F800000#32
  let main_v20 : FVec F S1000x500 .f32 := broadcastInDim S1000x500 ![] bcast_S_S1000x500 main_cst_6
  let main_v21 : IVec S1000x500 1 := cmpf .olt main_v19 main_v20
  let main_c_7 : IVec S_ 1 := constantI S_ 1 1#1
  let main_v22 : IVec S_ 1 := (fun x v => Host.reduce IntOp.andi x v reducesTo_S1000x500_S_d0_1 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  let main_v29 : FVec F S500x250 .f32 := Host.absf main_arg6
  let main_cst_10 : FVec F S_ .f32 := constant S_ .f32 0x7F800000#32
  let main_v30 : FVec F S500x250 .f32 := broadcastInDim S500x250 ![] bcast_S_S500x250 main_cst_10
  let main_v31 : IVec S500x250 1 := cmpf .olt main_v29 main_v30
  let main_c_11 : IVec S_ 1 := constantI S_ 1 1#1
  let main_v32 : IVec S_ 1 := (fun x v => Host.reduce IntOp.andi x v reducesTo_S500x250_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x512 .f32) (main_arg1 : FVec F S65536x512 .f32) (main_arg2 : FVec F S512x1000 .f32) (main_arg3 : FVec F S1000 .f32) (main_arg4 : FVec F S1000x500 .f32) (main_arg5 : FVec F S500 .f32) (main_arg6 : FVec F S500x250 .f32) (main_arg7 : FVec F S250 .f32) (main_arg8 : FVec F S250x1 .f32) (main_arg9 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x1000 .f32 := Host.absf main_arg2
  let main_cst_2 : FVec F S_ .f32 := constant S_ .f32 0x7F800000#32
  let main_v10 : FVec F S512x1000 .f32 := broadcastInDim S512x1000 ![] bcast_S_S512x1000 main_cst_2
  let main_v11 : IVec S512x1000 1 := cmpf .olt main_v9 main_v10
  let main_c_3 : IVec S_ 1 := constantI S_ 1 1#1
  let main_v12 : IVec S_ 1 := (fun x v => Host.reduce IntOp.andi x v reducesTo_S512x1000_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_arg5 main_arg6 main_arg7 main_arg8 main_arg9 main_v13 main_v16
-- ==== Kernel.lean ====
abbrev S65536x512 : Shape := ⟨2, ![65536, 512]⟩
abbrev S512x1000 : Shape := ⟨2, ![512, 1000]⟩
abbrev S1000 : Shape := ⟨1, ![1000]⟩
abbrev S1000x500 : Shape := ⟨2, ![1000, 500]⟩
abbrev S500 : Shape := ⟨1, ![500]⟩
abbrev S500x250 : Shape := ⟨2, ![500, 250]⟩
abbrev S250 : Shape := ⟨1, ![250]⟩
abbrev S250x1 : Shape := ⟨2, ![250, 1]⟩
abbrev S1 : Shape := ⟨1, ![1]⟩
abbrev S_ : Shape := ⟨0, ![]⟩
abbrev S512x1024 : Shape := ⟨2, ![512, 1024]⟩
abbrev S1024 : Shape := ⟨1, ![1024]⟩
abbrev S1x1024 : Shape := ⟨2, ![1, 1024]⟩
abbrev S1024x512 : Shape := ⟨2, ![1024, 512]⟩
abbrev S512 : Shape := ⟨1, ![512]⟩
abbrev S1x512 : Shape := ⟨2, ![1, 512]⟩
abbrev S512x256 : Shape := ⟨2, ![512, 256]⟩
abbrev S256 : Shape := ⟨1, ![256]⟩
abbrev S1x256 : Shape := ⟨2, ![1, 256]⟩
abbrev S256x128 : Shape := ⟨2, ![256, 128]⟩
abbrev S128 : Shape := ⟨1, ![128]⟩
abbrev S1x128 : Shape := ⟨2, ![1, 128]⟩
abbrev S1024x128 : Shape := ⟨2, ![1024, 128]⟩
abbrev S8x128 : Shape := ⟨2, ![8, 128]⟩
abbrev S1024x1024 : Shape := ⟨2, ![1024, 1024]⟩
abbrev S1024x256 : Shape := ⟨2, ![1024, 256]⟩
abbrev S1024x1 : Shape := ⟨2, ![1024, 1]⟩
abbrev S1x1024x1 : Shape := ⟨3, ![1, 1024, 1]⟩
abbrev S1x1x1 : Shape := ⟨3, ![1, 1, 1]⟩
abbrev S128x8x128 : Shape := ⟨3, ![128, 8, 128]⟩
abbrev S128x1x1 : Shape := ⟨3, ![128, 1, 1]⟩
abbrev S64 : Shape := ⟨1, ![64]⟩

abbrev nBuf : Space → Nat
  | .hbm => 57
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x1000, .f32⟩
  | .hbm, ⟨3, _⟩ => ⟨S1000, .f32⟩
  | .hbm, ⟨4, _⟩ => ⟨S1000x500, .f32⟩
  | .hbm, ⟨5, _⟩ => ⟨S500, .f32⟩
  | .hbm, ⟨6, _⟩ => ⟨S500x250, .f32⟩
  | .hbm, ⟨7, _⟩ => ⟨S250, .f32⟩
  | .hbm, ⟨8, _⟩ => ⟨S250x1, .f32⟩
  | .hbm, ⟨9, _⟩ => ⟨S1, .f32⟩
  | .hbm, ⟨10, _⟩ => ⟨S_, .i32⟩
  | .hbm, ⟨11, _⟩ => ⟨S_, .f32⟩
  | .hbm, ⟨12, _⟩ => ⟨S512x1024, .f32⟩
  | .hbm, ⟨13, _⟩ => ⟨S_, .i32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S_, .f32⟩
  | .hbm, ⟨19, _⟩ => ⟨S1024x512, .f32⟩
  | .hbm, ⟨20, _⟩ => ⟨S1024x512, .bf16⟩
  | .hbm, ⟨21, _⟩ => ⟨S_, .i32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S_, .i32⟩
  | .hbm, ⟨26, _⟩ => ⟨S_, .f32⟩
  | .hbm, ⟨27, _⟩ => ⟨S512x256, .f32⟩
  | .hbm, ⟨28, _⟩ => ⟨S512x256, .bf16⟩
  | .hbm, ⟨29, _⟩ => ⟨S_, .i32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S_, .i32⟩
  | .hbm, ⟨34, _⟩ => ⟨S_, .f32⟩
  | .hbm, ⟨35, _⟩ => ⟨S256x128, .f32⟩
  | .hbm, ⟨36, _⟩ => ⟨S256x128, .bf16⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S1024x128, .f32⟩
  | .hbm, ⟨42, _⟩ => ⟨S128x8x128, .f32⟩
  | .hbm, ⟨43, _⟩ => ⟨S128x1x1, .f32⟩
  | .hbm, ⟨44, _⟩ => ⟨S128, .f32⟩
  | .hbm, ⟨45, _⟩ => ⟨S128x1x1, .f32⟩
  | .hbm, ⟨46, _⟩ => ⟨S128, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S8x128, .f32⟩
  | .local _ .vmem, ⟨13, _⟩ => ⟨S8x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_c_2 : Ref sig .tc := ⟨.hbm, 21, rfl⟩
abbrev main_call3_v0 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_call4_v0 : Ref sig .tc := ⟨.hbm, 26, rfl⟩
abbrev main_v7 : Ref sig .tc := ⟨.hbm, 27, rfl⟩
abbrev main_v8 : Ref sig .tc := ⟨.hbm, 28, rfl⟩
abbrev main_c_4 : Ref sig .tc := ⟨.hbm, 29, rfl⟩
abbrev main_call5_v0 : Ref sig .tc := ⟨.hbm, 30, rfl⟩
abbrev main_v9 : Ref sig .tc := ⟨.hbm, 31, rfl⟩
abbrev main_v10 : Ref sig .tc := ⟨.hbm, 32, rfl⟩
abbrev main_c_5 : Ref sig .tc := ⟨.hbm, 33, rfl⟩
abbrev main_call6_v0 : Ref sig .tc := ⟨.hbm, 34, rfl⟩
abbrev main_v11 : Ref sig .tc := ⟨.hbm, 35, rfl⟩
abbrev main_v12 : Ref sig .tc := ⟨.hbm, 36, rfl⟩
abbrev main_c_6 : Ref sig .tc := ⟨.hbm, 37, rfl⟩
abbrev main_call7_v0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  pads_S512x1000_S512x1024_000_0240 : S512x1000.Pads (![0, 0] : Fin 2 → Nat) ![0, 24] ![0, 0] S512x1024
  h_S_ : 0 < S_.numel
  pads_S1000_S1024_0240 : S1000.Pads (![0] : Fin 1 → Nat) ![24] ![0] S1024
  shapeCasts_S1024_S1x1024 : S1024.ShapeCasts S1x1024
  pads_S1000x500_S1024x512_0240_0120 : S1000x500.Pads (![0, 0] : Fin 2 → Nat) ![24, 12] ![0, 0] S1024x512
  bitsLt_bf16_f32 : FTy.bits .bf16 < FTy.bits .f32
  pads_S500_S512_0120 : S500.Pads (![0] : Fin 1 → Nat) ![12] ![0] S512
  shapeCasts_S512_S1x512 : S512.ShapeCasts S1x512
  pads_S500x250_S512x256_0120_060 : S500x250.Pads (![0, 0] : Fin 2 → Nat) ![12, 6] ![0, 0] S512x256
  pads_S250_S256_060 : S250.Pads (![0] : Fin 1 → Nat) ![6] ![0] S256
  shapeCasts_S256_S1x256 : S256.ShapeCasts S1x256
  pads_S250x1_S256x128_060_01270 : S250x1.Pads (![0, 0] : Fin 2 → Nat) ![6, 127] ![0, 0] S256x128
  pads_S1_S128_01270 : S1.Pads (![0] : Fin 1 → Nat) ![127] ![0] S128
  shapeCasts_S128_S1x128 : S128.ShapeCasts S1x128
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x1 : S1024x128.Slices ![0, 0] S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  shapeCasts_S1024x128_S128x8x128 : S1024x128.ShapeCasts S128x8x128
  slices_S128x8x128_S128x1x1_0_0_0 : S128x8x128.Slices ![0, 0, 0] S128x1x1
  shapeCasts_S128x1x1_S128 : S128x1x1.ShapeCasts S128
  slices_S128x8x128_S128x1x1_0_0_1 : S128x8x128.Slices ![0, 0, 1] S128x1x1
  slices_S128_S64_0 : S128.Slices ![0] S64
  reducesTo_S64_S_d0 : S64.ReducesTo [0] S_
  slices_S128_S64_64 : S128.Slices ![64] S64
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S1024x128.size a
  hwx0_10 : ∀ i : grid0.Coords, EltTy.bits .f32 = 32 ∨ (Rect.block (s := S1024x128) S8x128.size (cc0_transform_10 i) (hinb0_10 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x1000 : Shape := ⟨2, ![512, 1000]⟩
abbrev S1000 : Shape := ⟨1, ![1000]⟩
abbrev S1000x500 : Shape := ⟨2, ![1000, 500]⟩
abbrev S500 : Shape := ⟨1, ![500]⟩
abbrev S500x250 : Shape := ⟨2, ![500, 250]⟩
abbrev S250 : Shape := ⟨1, ![250]⟩
abbrev S250x1 : Shape := ⟨2, ![250, 1]⟩
abbrev S1 : Shape := ⟨1, ![1]⟩
abbrev S65536x1000 : Shape := ⟨2, ![65536, 1000]⟩
abbrev S1x1000 : Shape := ⟨2, ![1, 1000]⟩
abbrev S_ : Shape := ⟨0, ![]⟩
abbrev S65536x500 : Shape := ⟨2, ![65536, 500]⟩
abbrev S1x500 : Shape := ⟨2, ![1, 500]⟩
abbrev S65536x250 : Shape := ⟨2, ![65536, 250]⟩
abbrev S1x250 : Shape := ⟨2, ![1, 250]⟩
abbrev S65536x1 : Shape := ⟨2, ![65536, 1]⟩
abbrev S1x1 : Shape := ⟨2, ![1, 1]⟩
abbrev S65536 : Shape := ⟨1, ![65536]⟩

abbrev nBuf : Space → Nat
  | .hbm => 111
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x1000, .f32⟩
  | .hbm, ⟨3, _⟩ => ⟨S1000, .f32⟩
  | .hbm, ⟨4, _⟩ => ⟨S1000x500, .f32⟩
  | .hbm, ⟨5, _⟩ => ⟨S500, .f32⟩
  | .hbm, ⟨6, _⟩ => ⟨S500x250, .f32⟩
  | .hbm, ⟨7, _⟩ => ⟨S250, .f32⟩
  | .hbm, ⟨8, _⟩ => ⟨S250x1, .f32⟩
  | .hbm, ⟨9, _⟩ => ⟨S1, .f32⟩
  | .hbm, ⟨10, _⟩ => ⟨S65536x1000, .f32⟩
  | .hbm, ⟨11, _⟩ => ⟨S1x1000, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536x1000, .f32⟩
  | .hbm, ⟨16, _⟩ => ⟨S65536x1000, .f32⟩
  | .hbm, ⟨17, _⟩ => ⟨S65536x500, .f32⟩
  | .hbm, ⟨18, _⟩ => ⟨S1x500, .f32⟩
  | .hbm, ⟨19, _⟩ => ⟨S65536x500, .f32⟩
  | .hbm, ⟨20, _⟩ => ⟨S65536x500, .f32⟩
  | .hbm, ⟨21, _⟩ => ⟨S_, .f32⟩
  | .hbm, ⟨22, _⟩ => ⟨S65536x500, .f32⟩
  | .hbm, ⟨23, _⟩ => ⟨S65536x500, .f32⟩
  | .hbm, ⟨24, _⟩ => ⟨S65536x250, .f32⟩
  | .hbm, ⟨25, _⟩ => ⟨S1x250, .f32⟩
  | .hbm, ⟨26, _⟩ => ⟨S65536x250, .f32⟩
  | .hbm, ⟨27, _⟩ => ⟨S65536x250, .f32⟩
  | .hbm, ⟨28, _⟩ => ⟨S_, .f32⟩
  | .hbm, ⟨29, _⟩ => ⟨S65536x250, .f32⟩
  | .hbm, ⟨30, _⟩ => ⟨S65536x250, .f32⟩
  | .hbm, ⟨31, _⟩ => ⟨S65536x1, .f32⟩
  | .hbm, ⟨32, _⟩ => ⟨S1x1, .f32⟩
  | .hbm, ⟨33, _⟩ => ⟨S65536x1, .f32⟩
  | .hbm, ⟨34, _⟩ => ⟨S65536x1, .f32⟩
  | .hbm, ⟨35, _⟩ => ⟨S65536, .f32⟩
  | .hbm, ⟨36, _⟩ => ⟨S65536x1000, .f32⟩
  | .hbm, ⟨37, _⟩ => ⟨S1x1000, .f32⟩
  | .hbm, ⟨38, _⟩ => ⟨S65536x1000, .f32⟩
  | .hbm, ⟨39, _⟩ => ⟨S65536x1000, .f32⟩
  | .hbm, ⟨40, _⟩ => ⟨S_, .f32⟩
  | .hbm, ⟨41, _⟩ => ⟨S65536x1000, .f32⟩
  | .hbm, ⟨42, _⟩ => ⟨S65536x1000, .f32⟩
  | .hbm, ⟨43, _⟩ => ⟨S65536x500, .f32⟩
  | .hbm, ⟨44, _⟩ => ⟨S1x500, .f32⟩
  | .hbm, ⟨45, _⟩ => ⟨S65536x500, .f32⟩
  | .hbm, ⟨46, _⟩ => ⟨S65536x500, .f32⟩
  | .hbm, ⟨47, _⟩ => ⟨S_, .f32⟩
  | .hbm, ⟨48, _⟩ => ⟨S65536x500, .f32⟩
  | .hbm, ⟨49, _⟩ => ⟨S65536x500, .f32⟩
  | .hbm, ⟨50, _⟩ => ⟨S65536x250, .f32⟩
  | .hbm, ⟨51, _⟩ => ⟨S1x250, .f32⟩
  | .hbm, ⟨52, _⟩ => ⟨S65536x250, .f32⟩
  | .hbm, ⟨53, _⟩ => ⟨S65536x250, .f32⟩
  | .hbm, ⟨54, _⟩ => ⟨S_, .f32⟩
  | .hbm, ⟨55, _⟩ => ⟨S65536x250, .f32⟩
  | .hbm, ⟨56, _⟩ => ⟨S65536x250, .f32⟩
  | .hbm, ⟨57, _⟩ => ⟨S65536x1, .f32⟩
  | .hbm, ⟨58, _⟩ => ⟨S1x1, .f32⟩
  | .hbm, ⟨59, _⟩ => ⟨S65536x1, .f32⟩
  | .hbm, ⟨60, _⟩ => ⟨S65536x1, .f32⟩
  | .hbm, ⟨61, _⟩ => ⟨S65536, .f32⟩
  | .hbm, ⟨62, _⟩ => ⟨S65536, .f32⟩
  | .hbm, ⟨63, _⟩ => ⟨S_, .f32⟩
  | .hbm, ⟨64, _⟩ => ⟨S65536, .f32⟩
  | .hbm, ⟨65, _⟩ => ⟨S65536, .f32⟩
  | .hbm, ⟨66, _⟩ => ⟨S65536, .f32⟩
  | .hbm, ⟨67, _⟩ => ⟨S65536, .f32⟩
  | .hbm, ⟨68, _⟩ => ⟨S65536, .i1⟩
  | .hbm, ⟨69, _⟩ => ⟨S65536, .f32⟩
  | .hbm, ⟨70, _⟩ => ⟨S65536, .f32⟩
  | .hbm, ⟨71, _⟩ => ⟨S65536, .f32⟩
  | .hbm, ⟨72, _⟩ => ⟨S65536, .f32⟩
  | .hbm, ⟨73, _⟩ => ⟨S65536, .f32⟩
  | .hbm, ⟨74, _⟩ => ⟨S65536, .f32⟩
  | .hbm, ⟨75, _⟩ => ⟨S65536, .f32⟩
  | .hbm, ⟨76, _⟩ => ⟨S65536, .f32⟩
  | .hbm, ⟨77, _⟩ => ⟨S_, .f32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S65536, .f32⟩
  | .hbm, ⟨82, _⟩ => ⟨S65536, .f32⟩
  | .hbm, ⟨83, _⟩ => ⟨S65536, .f32⟩
  | .hbm, ⟨84, _⟩ => ⟨S65536, .f32⟩
  | .hbm, ⟨85, _⟩ => ⟨S65536, .i1⟩
  | .hbm, ⟨86, _⟩ => ⟨S65536, .f32⟩
  | .hbm, ⟨87, _⟩ => ⟨S65536, .f32⟩
  | .hbm, ⟨88, _⟩ => ⟨S65536, .f32⟩
  | .hbm, ⟨89, _⟩ => ⟨S65536, .f32⟩
  | .hbm, ⟨90, _⟩ => ⟨S65536, .f32⟩
  | .hbm, ⟨91, _⟩ => ⟨S65536, .f32⟩
  | .hbm, ⟨92, _⟩ => ⟨S65536, .f32⟩
  | .hbm, ⟨93, _⟩ => ⟨S65536, .f32⟩
  | .hbm, ⟨94, _⟩ => ⟨S_, .f32⟩
  | .hbm, ⟨95, _⟩ => ⟨S65536, .f32⟩
  | .hbm, ⟨96, _⟩ => ⟨S65536, .f32⟩
  | .hbm, ⟨97, _⟩ => ⟨S65536, .f32⟩
  | .hbm, ⟨98, _⟩ => ⟨S65536, .f32⟩
  | .hbm, ⟨99, _⟩ => ⟨S65536, .i1⟩
  | .hbm, ⟨100, _⟩ => ⟨S65536, .f32⟩
  | .hbm, ⟨101, _⟩ => ⟨S65536, .f32⟩
  | .hbm, ⟨102, _⟩ => ⟨S65536, .f32⟩
  | .hbm, ⟨103, _⟩ => ⟨S65536, .f32⟩
  | .hbm, ⟨104, _⟩ => ⟨S65536, .f32⟩
  | .hbm, ⟨105, _⟩ => ⟨S65536, .f32⟩
  | .hbm, ⟨106, _⟩ => ⟨S65536, .f32⟩
  | .hbm, ⟨107, _⟩ => ⟨S65536, .f32⟩
  | .hbm, ⟨108, _⟩ => ⟨S65536, .f32⟩
  | .hbm, ⟨109, _⟩ => ⟨S_, .f32⟩
  | .hbm, ⟨110, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call3_cst : Ref sig .tc := ⟨.hbm, 40, rfl⟩
abbrev main_call3_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call4_cst : Ref sig .tc := ⟨.hbm, 47, rfl⟩
abbrev main_call4_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call5_cst : Ref sig .tc := ⟨.hbm, 54, rfl⟩
abbrev main_call5_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call6_cst : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_call6_v5 : Ref sig .tc := ⟨.hbm, 69, rfl⟩
abbrev main_call6_v6 : Ref sig .tc := ⟨.hbm, 70, rfl⟩
abbrev main_call6_v7 : Ref sig .tc := ⟨.hbm, 71, rfl⟩
abbrev main_call6_v8 : Ref sig .tc := ⟨.hbm, 72, rfl⟩
abbrev main_call6_v9 : Ref sig .tc := ⟨.hbm, 73, rfl⟩
abbrev main_call6_v10 : Ref sig .tc := ⟨.hbm, 74, rfl⟩
abbrev main_call6_v11 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_v43 : Ref sig .tc := ⟨.hbm, 79, rfl⟩
abbrev main_call7_cst : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_call7_v3 : Ref sig .tc := ⟨.hbm, 84, rfl⟩
abbrev main_call7_v4 : Ref sig .tc := ⟨.hbm, 85, rfl⟩
abbrev main_call7_v5 : Ref sig .tc := ⟨.hbm, 86, rfl⟩
abbrev main_call7_v6 : Ref sig .tc := ⟨.hbm, 87, rfl⟩
abbrev main_call7_v7 : Ref sig .tc := ⟨.hbm, 88, rfl⟩
abbrev main_call7_v8 : Ref sig .tc := ⟨.hbm, 89, rfl⟩
abbrev main_call7_v9 : Ref sig .tc := ⟨.hbm, 90, rfl⟩
abbrev main_call7_v10 : Ref sig .tc := ⟨.hbm, 91, rfl⟩
abbrev main_call7_v11 : Ref sig .tc := ⟨.hbm, 92, rfl⟩
abbrev main_v44 : Ref sig .tc := ⟨.hbm, 93, rfl⟩
abbrev main_call8_cst : Ref sig .tc := ⟨.hbm, 94, rfl⟩
abbrev main_call8_v0 : Ref sig .tc := ⟨.hbm, 95, rfl⟩
abbrev main_call8_v1 : Ref sig .tc := ⟨.hbm, 96, rfl⟩
abbrev main_call8_v2 : Ref sig .tc := ⟨.hbm, 97, rfl⟩
abbrev main_call8_v3 : Ref sig .tc := ⟨.hbm, 98, rfl⟩
abbrev main_call8_v4 : Ref sig .tc := ⟨.hbm, 99, rfl⟩
abbrev main_call8_v5 : Ref sig .tc := ⟨.hbm, 100, rfl⟩
abbrev main_call8_v6 : Ref sig .tc := ⟨.hbm, 101, rfl⟩
abbrev main_call8_v7 : Ref sig .tc := ⟨.hbm, 102, rfl⟩
abbrev main_call8_v8 : Ref sig .tc := ⟨.hbm, 103, rfl⟩
abbrev main_call8_v9 : Ref sig .tc := ⟨.hbm, 104, rfl⟩
abbrev main_call8_v10 : Ref sig .tc := ⟨.hbm, 105, rfl⟩
abbrev main_call8_v11 : Ref sig .tc := ⟨.hbm, 106, rfl⟩
abbrev main_v45 : Ref sig .tc := ⟨.hbm, 107, rfl⟩
abbrev main_v46 : Ref sig .tc := ⟨.hbm, 108, rfl⟩
abbrev main_cst_0 : Ref sig .tc := ⟨.hbm, 109, rfl⟩
abbrev main_v47 : Ref sig .tc := ⟨.hbm, 110, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  bcast_S500_S1x500_1 : S500.BroadcastsInDim S1x500 (![1] : Fin 1 → Fin S1x500.rank)
  bcast_S1x500_S65536x500_0_1 : S1x500.BroadcastsInDim S65536x500 (![0, 1] : Fin 2 → Fin S65536x500.rank)
  bcast_S_S65536x500 : S_.BroadcastsInDim S65536x500 (![] : Fin 0 → Fin S65536x500.rank)
  bcast_S250_S1x250_1 : S250.BroadcastsInDim S1x250 (![1] : Fin 1 → Fin S1x250.rank)
  bcast_S1x250_S65536x250_0_1 : S1x250.BroadcastsInDim S65536x250 (![0, 1] : Fin 2 → Fin S65536x250.rank)
  bcast_S_S65536x250 : S_.BroadcastsInDim S65536x250 (![] : Fin 0 → Fin S65536x250.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  bcast_S_S65536 : S_.BroadcastsInDim S65536 (![] : Fin 0 → Fin S65536.rank)
  reducesTo_S65536_S_d0 : S65536.ReducesTo [0] S_
  h_S_ : 0 < S_.numel
  dot_S65536x512_S512x1000_S65536x1000_1_0_0_1_n_n_wf : DotDims.WF S65536x512 S512x1000 S65536x1000 [1] [0] [0] [1] [] []
  dot_S65536x1000_S1000x500_S65536x500_1_0_0_1_n_n_wf : DotDims.WF S65536x1000 S1000x500 S65536x500 [1] [0] [0] [1] [] []
  dot_S65536x500_S500x250_S65536x250_1_0_0_1_n_n_wf : DotDims.WF S65536x500 S500x250 S65536x250 [1] [0] [0] [1] [] []
  dot_S65536x250_S250x1_S65536x1_1_0_0_1_n_n_wf : DotDims.WF S65536x250 S250x1 S65536x1 [1] [0] [0] [1] [] []

variable [Facts₀]

def dot_S65536x512_S512x1000_S65536x1000_1_0_0_1_n_n : DotDims S65536x512 S512x1000 S65536x1000 where
  lhsContracting := [1]
  rhsContracting := [0]
  lhsNonContracting := [0]
  rhsNonContracting := [1]
  lhsBatch := []
  rhsBatch := []
  wf := dot_S65536x512_S512x1000_S65536x1000_1_0_0_1_n_n_wf
def dot_S65536x1000_S1000x500_S65536x500_1_0_0_1_n_n : DotDims S65536x1000 S1000x500 S65536x500 where
  lhsContracting := [1]
  rhsContracting := [0]
  lhsNonContracting := [0]
  rhsNonContracting := [1]
  lhsBatch := []
  rhsBatch := []
  wf := dot_S65536x1000_S1000x500_S65536x500_1_0_0_1_n_n_wf
def dot_S65536x500_S500x250_S65536x250_1_0_0_1_n_n : DotDims S65536x500 S500x250 S65536x250 where
  lhsContracting := [1]
  rhsContracting := [0]
  lhsNonContracting := [0]
  rhsNonContracting := [1]
  lhsBatch := []
  rhsBatch := []
  wf := dot_S65536x500_S500x250_S65536x250_1_0_0_1_n_n_wf
def dot_S65536x250_S250x1_S65536x1_1_0_0_1_n_n : DotDims S65536x250 S250x1 S65536x1 where
  lhsContracting := [1]
  rhsContracting := [0]
  lhsNonContracting := [0]
  rhsNonContracting := [1]
  lhsBatch := []
  rhsBatch := []
  wf := dot_S65536x250_S250x1_S65536x1_1_0_0_1_n_n_wf

class Facts : Prop extends Facts₀ where

variable [Facts]
-- ==== Proof.Spec.lean ====
/-
  The mathematics both programs compute, over the extended reals, with plain `Fin`-indexed functions.

  A discriminator with three hidden layers (widths 1000, 500, 250, each an affine map followed by `max · 0`) and one
  output unit maps a row `x : Fin 512 → EReal` to a logit `z`. With `sp a = max a 0 + log1p (exp (-|a|))` (the stable
  form of `log (1 + exp a)`), the two results are
    loss_F = ∑ n, sp (-z (x̂ n))          and          loss_D = ∑ n, (sp (-z (x n)) + sp (z (x̂ n)))
  over the 65536 rows of the two batches.

  Two facts about these sums are proved here, both valid on the extended reals without any finiteness hypothesis:
  * zero padding of the hidden widths (1000 → 1024, 500 → 512, 250 → 256, 1 → 128) does not change the logit, because
    a padded weight is `0`, `a * 0 = 0` for every extended real `a`, and `max 0 0 = 0`;
  * a sum over 65536 rows is the sum over 64 blocks of the sums over each block's 1024 rows (`+` on the extended reals
    is commutative and associative).
-/
import Idealize.ShloMosaic.PureOps.Ideal
import Idealize.ShloMosaic.PureOps.Ideal.Laws
import Idealize.ShloMosaic.Lib.ValueIdx

noncomputable section

namespace Cert.Spec

open Idealize.ShloMosaic

/-! ## A sum whose tail vanishes -/

/-- A sum over `Fin K'` whose terms vanish from `K` on is the sum of its first `K` terms. -/
theorem sum_castLE {M : Type*} [AddCommMonoid M] {K K' : ℕ} (h : K ≤ K') (f : Fin K' → M)
    (hf : ∀ k : Fin K', K ≤ k.val → f k = 0) : ∑ k : Fin K', f k = ∑ k : Fin K, f (Fin.castLE h k) := by
  have e : ∑ k : Fin K, f (Fin.castLE h k) = ∑ k ∈ Finset.univ.map (Fin.castLEEmb h), f k := by
    rw [Finset.sum_map]; rfl
  rw [e]
  symm
  apply Finset.sum_subset (Finset.subset_univ _)
  intro k _ hk
  apply hf
  by_contra hlt
  exact hk (Finset.mem_map.mpr ⟨⟨k.val, not_le.mp hlt⟩, Finset.mem_univ _, Fin.ext rfl⟩)

/-! ## Layers -/

/-- An affine layer: entry `j` of `x · W + b`. -/
def dense {K N : ℕ} (x : Fin K → EReal) (W : Fin K → Fin N → EReal) (b : Fin N → EReal) (j : Fin N) : EReal :=
  (∑ k : Fin K, x k * W k j) + b j

/-- An affine layer followed by `max · 0`. -/
def act {K N : ℕ} (x : Fin K → EReal) (W : Fin K → Fin N → EReal) (b : Fin N → EReal) (j : Fin N) : EReal :=
  max (dense x W b j) 0

/-- A weight matrix extended by zeros to `K' × N'`. -/
def padM {K N : ℕ} (K' N' : ℕ) (W : Fin K → Fin N → EReal) : Fin K' → Fin N' → EReal :=
  fun k j => if h : k.val < K ∧ j.val < N then W ⟨k.val, h.1⟩ ⟨j.val, h.2⟩ else 0

/-- A bias vector extended by zeros to length `N'`. -/
def padV {N : ℕ} (N' : ℕ) (b : Fin N → EReal) : Fin N' → EReal :=
  fun j => if h : j.val < N then b ⟨j.val, h⟩ else 0

/-- An affine layer with zero-padded weights and bias: at an original column it is the original layer of the first `K`
    entries of the input (the padded rows of the weights are zero, whatever the input holds there), at a padded column it
    is `0`. -/
theorem dense_pad {K N K' N' : ℕ} (hK : K ≤ K') (x' : Fin K' → EReal) (W : Fin K → Fin N → EReal) (b : Fin N → EReal)
    (j : Fin N') :
    dense x' (padM K' N' W) (padV N' b) j
      = if h : j.val < N then dense (fun k => x' (Fin.castLE hK k)) W b ⟨j.val, h⟩ else 0 := by
  unfold dense
  by_cases h : j.val < N
  · rw [dif_pos h, sum_castLE hK (fun k => x' k * padM K' N' W k j) (fun k hk => by
      unfold padM; rw [dif_neg (fun hh => absurd hh.1 (not_lt.mpr hk)), mul_zero])]
    congr 1
    · refine Finset.sum_congr rfl fun k _ => ?_
      unfold padM
      rw [dif_pos ⟨k.isLt, h⟩]
      rfl
    · unfold padV; rw [dif_pos h]
  · rw [dif_neg h]
    have hz : ∀ k : Fin K', x' k * padM K' N' W k j = 0 := fun k => by
      unfold padM; rw [dif_neg (fun hh => h hh.2), mul_zero]
    rw [Finset.sum_congr rfl (fun k _ => hz k), Finset.sum_const_zero]
    unfold padV; rw [dif_neg h, add_zero]

/-- The same through `max · 0`. -/
theorem act_pad {K N K' N' : ℕ} (hK : K ≤ K') (x' : Fin K' → EReal) (W : Fin K → Fin N → EReal) (b : Fin N → EReal)
    (j : Fin N') :
    act x' (padM K' N' W) (padV N' b) j
      = if h : j.val < N then act (fun k => x' (Fin.castLE hK k)) W b ⟨j.val, h⟩ else 0 := by
  unfold act
  rw [dense_pad hK]
  by_cases h : j.val < N
  · rw [dif_pos h, dif_pos h]
  · rw [dif_neg h, dif_neg h, max_self]

/-- So the first `N` entries of a padded layer's output are the original layer's output. -/
theorem act_pad_castLE {K N K' N' : ℕ} (hK : K ≤ K') (hN : N ≤ N') (x' : Fin K' → EReal) (W : Fin K → Fin N → EReal)
    (b : Fin N → EReal) :
    (fun j : Fin N => act x' (padM K' N' W) (padV N' b) (Fin.castLE hN j))
      = act (fun k => x' (Fin.castLE hK k)) W b := by
  funext j
  rw [act_pad hK, dif_pos (show (Fin.castLE hN j).val < N from j.isLt)]
  rfl

/-! ## The discriminator -/

/-- The weights and biases of the four layers. -/
structure Params where
  W1 : Fin 512 → Fin 1000 → EReal
  b1 : Fin 1000 → EReal
  W2 : Fin 1000 → Fin 500 → EReal
  b2 : Fin 500 → EReal
  W3 : Fin 500 → Fin 250 → EReal
  b3 : Fin 250 → EReal
  W4 : Fin 250 → Fin 1 → EReal
  b4 : Fin 1 → EReal

/-- The logit of a row. -/
def logit (P : Params) (x : Fin 512 → EReal) : EReal :=
  dense (act (act (act x P.W1 P.b1) P.W2 P.b2) P.W3 P.b3) P.W4 P.b4 0

/-- The logit computed with every hidden width (and the output width) zero-padded to 1024, 512, 256, 128. -/
def logitP (P : Params) (x : Fin 512 → EReal) : EReal :=
  dense (act (act (act x (padM 512 1024 P.W1) (padV 1024 P.b1)) (padM 1024 512 P.W2) (padV 512 P.b2))
    (padM 512 256 P.W3) (padV 256 P.b3)) (padM 256 128 P.W4) (padV 128 P.b4) 0

/-- Zero padding does not change the logit. -/
theorem logitP_eq (P : Params) (x : Fin 512 → EReal) : logitP P x = logit P x := by
  unfold logitP logit
  rw [dense_pad (show 250 ≤ 256 by norm_num), dif_pos (show ((0 : Fin 128)).val < 1 by decide)]
  rw [act_pad_castLE (show 500 ≤ 512 by norm_num) (show 250 ≤ 256 by norm_num)]
  rw [act_pad_castLE (show 1000 ≤ 1024 by norm_num) (show 500 ≤ 512 by norm_num)]
  rw [act_pad_castLE (show 512 ≤ 512 by norm_num) (show 1000 ≤ 1024 by norm_num)]
  rfl

/-! ## The two losses -/

/-- `log (1 + exp a)` in its stable form. -/
def sp (a : EReal) : EReal := max a 0 + Ideal.log1p (Ideal.exp (-(max a (-a))))

/-- The generator's loss. -/
def lossF (P : Params) (Xhat : Fin 65536 → Fin 512 → EReal) : EReal :=
  ∑ n : Fin 65536, sp (-(logit P (Xhat n)))

/-- The discriminator's loss. -/
def lossD (P : Params) (Xhat X : Fin 65536 → Fin 512 → EReal) : EReal :=
  ∑ n : Fin 65536, (sp (-(logit P (X n))) + sp (logit P (Xhat n)))

/-! ## Sums by blocks of rows -/

/-- Row `r` of block `t`, of 64 blocks of 1024 rows. -/
def row (t : Fin 64) (r : Fin 1024) : Fin 65536 := ⟨1024 * t.val + r.val, by have := t.isLt; have := r.isLt; omega⟩

/-- A sum over the 65536 rows is the sum over the 64 blocks of the sums over each block's 1024 rows. -/
theorem sum_rows {M : Type*} [AddCommMonoid M] (f : Fin 65536 → M) :
    ∑ n : Fin 65536, f n = ∑ t : Fin 64, ∑ r : Fin 1024, f (row t r) := by
  rw [← Fintype.sum_prod_type' (fun t r => f (row t r))]
  refine (Fintype.sum_equiv (finProdFinEquiv (m := 64) (n := 1024)) _ _ (fun p => ?_)).symm
  congr 1
  apply Fin.ext
  show 1024 * p.1.val + p.2.val = p.2.val + 1024 * p.1.val
  omega

/-- The generator's loss by blocks. -/
theorem lossF_blocks (P : Params) (Xhat : Fin 65536 → Fin 512 → EReal) :
    lossF P Xhat = ∑ t : Fin 64, ∑ r : Fin 1024, sp (-(logit P (Xhat (row t r)))) := sum_rows _

/-- The discriminator's loss by blocks, its two terms summed separately. -/
theorem lossD_blocks (P : Params) (Xhat X : Fin 65536 → Fin 512 → EReal) :
    lossD P Xhat X = (∑ t : Fin 64, ∑ r : Fin 1024, sp (-(logit P (X (row t r)))))
      + ∑ t : Fin 64, ∑ r : Fin 1024, sp (logit P (Xhat (row t r))) := by
  unfold lossD
  rw [Finset.sum_add_distrib, sum_rows, sum_rows (fun n => sp (logit P (Xhat n)))]

/-! ## The argument arrays as `Fin`-indexed functions -/

open Idealize.ShloMosaic.ValueIdx in
/-- A batch `[65536, 512]` by rows. -/
def rows (X : (⟨2, ![65536, 512]⟩ : Shape).Idx → EReal) : Fin 65536 → Fin 512 → EReal := fun n k => X (ix2 n k)

open Idealize.ShloMosaic.ValueIdx in
/-- The eight weight and bias arrays as the four layers' parameters. -/
def params (W1 : (⟨2, ![512, 1000]⟩ : Shape).Idx → EReal) (b1 : (⟨1, ![1000]⟩ : Shape).Idx → EReal)
    (W2 : (⟨2, ![1000, 500]⟩ : Shape).Idx → EReal) (b2 : (⟨1, ![500]⟩ : Shape).Idx → EReal)
    (W3 : (⟨2, ![500, 250]⟩ : Shape).Idx → EReal) (b3 : (⟨1, ![250]⟩ : Shape).Idx → EReal)
    (W4 : (⟨2, ![250, 1]⟩ : Shape).Idx → EReal) (b4 : (⟨1, ![1]⟩ : Shape).Idx → EReal) : Params where
  W1 := fun k j => W1 (ix2 k j)
  b1 := fun j => b1 (ix1 j)
  W2 := fun k j => W2 (ix2 k j)
  b2 := fun j => b2 (ix1 j)
  W3 := fun k j => W3 (ix2 k j)
  b3 := fun j => b3 (ix1 j)
  W4 := fun k j => W4 (ix2 k j)
  b4 := fun j => b4 (ix1 j)

end Cert.Spec

end
-- ==== Proof.SpecPadded.lean ====
/-
  The discriminator at the padded widths, with arbitrary padded parameters.

  The kernel's body works at the widths 1024, 512, 256, 128 with whatever weight and bias tiles it is handed; this is
  that computation as a function of those tiles. When the tiles are the zero-padded original parameters it is the
  original logit (`Cert.Spec.logitP_eq`).
-/
import proofs.«136568_j9869834846413_2_alg».proof.Proof.Spec

noncomputable section

namespace Cert.Spec

/-- Weights and biases at the padded widths. -/
structure PParams where
  W1 : Fin 512 → Fin 1024 → EReal
  b1 : Fin 1024 → EReal
  W2 : Fin 1024 → Fin 512 → EReal
  b2 : Fin 512 → EReal
  W3 : Fin 512 → Fin 256 → EReal
  b3 : Fin 256 → EReal
  W4 : Fin 256 → Fin 128 → EReal
  b4 : Fin 128 → EReal

/-- The third hidden layer's activations of a row. -/
def hidden3 (Q : PParams) (x : Fin 512 → EReal) : Fin 256 → EReal :=
  act (act (act x Q.W1 Q.b1) Q.W2 Q.b2) Q.W3 Q.b3

/-- Column `0` of the last affine layer: the row's logit. -/
def logitQ (Q : PParams) (x : Fin 512 → EReal) : EReal := dense (hidden3 Q x) Q.W4 Q.b4 0

/-- The original parameters, each zero-padded to the kernel's widths. -/
def padParams (P : Params) : PParams where
  W1 := padM 512 1024 P.W1
  b1 := padV 1024 P.b1
  W2 := padM 1024 512 P.W2
  b2 := padV 512 P.b2
  W3 := padM 512 256 P.W3
  b3 := padV 256 P.b3
  W4 := padM 256 128 P.W4
  b4 := padV 128 P.b4

/-- With zero-padded parameters the padded computation is the original logit. -/
theorem logitQ_pad (P : Params) (x : Fin 512 → EReal) : logitQ (padParams P) x = logit P x :=
  logitP_eq P x

end Cert.Spec

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.KernelLayer.lean ====
/-
  One layer of the kernel's body read at an index, over the extended reals.

  The body computes each hidden layer on a whole tile: a matrix product of the tile `[M, K]` by the weights `[K, N]`
  from the zero accumulator, plus the bias row `[1, N]` broadcast over the `M` rows, then `max · 0` (and a change of
  float format, which is the identity on exact values). Entry `(p, o)` of the result depends on row `p` of the tile only:
  it is the specification's layer (`Cert.Spec.act`, or `Cert.Spec.dense` for the last layer, which has no `max`) of that
  row. General in the three extents and in the operands' float formats.
-/
import Idealize.ShloMosaic.Lib.ValueLayout
import Idealize.ShloMosaic.Lib.Pipeline.Value
import proofs.«136568_j9869834846413_2_alg».proof.Proof.Spec
import proofs.«136568_j9869834846413_2_alg».proof.Proof.LibMatmulPlain

noncomputable section

namespace Cert.KernelLayer

open Idealize.ShloMosaic Idealize.ShloMosaic.ValueIdx

variable {M K N : ℕ}

/-- The affine part of a layer at `(p, o)`: row `p` of the tile times column `o` of the weights, plus the bias at `o`. -/
theorem affine_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (X : FVec Ideal ⟨2, ![M, K]⟩ φ₁)
    (W : (⟨2, ![K, N]⟩ : Shape).Idx → Ideal φ₂) (hW : (⟨2, ![K, N]⟩ : Shape).ShapeCasts ⟨2, ![K, N]⟩)
    (b : (⟨2, ![1, N]⟩ : Shape).Idx → Ideal .f32) (hb1 : (⟨2, ![1, N]⟩ : Shape).ShapeCasts ⟨2, ![1, N]⟩)
    (hb : (⟨2, ![1, N]⟩ : Shape).Broadcasts ⟨2, ![M, N]⟩) (p : Fin M) (o : Fin N) :
    addf (matmul d prec X (shapeCast ⟨2, ![K, N]⟩ W hW) (constant ⟨2, ![M, N]⟩ .f32 0x00000000#32))
        (broadcastTo ⟨2, ![M, N]⟩ (shapeCast ⟨2, ![1, N]⟩ b hb1) hb) (ix2 p o)
      = Cert.Spec.dense (fun k => X (ix2 p k)) (fun k j => W (ix2 k j)) (fun j => b (ix2 (0 : Fin 1) j)) o := by
  rw [shapeCast_self, shapeCast_self, addf_apply, broadcastTo_1b_ab_apply]
  refine congrArg (· + b (ix2 (0 : Fin 1) o)) ?_
  exact Cert.MatmulPlain.matmul_plain_apply d hlc hrc hln hrn hlb hrb prec X W p o

/-- A hidden layer at `(p, o)`: `max · 0` of the affine part (the change of float format is the identity). -/
theorem hidden_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (X : FVec Ideal ⟨2, ![M, K]⟩ φ₁)
    (W : (⟨2, ![K, N]⟩ : Shape).Idx → Ideal φ₂) (hW : (⟨2, ![K, N]⟩ : Shape).ShapeCasts ⟨2, ![K, N]⟩)
    (b : (⟨2, ![1, N]⟩ : Shape).Idx → Ideal .f32) (hb1 : (⟨2, ![1, N]⟩ : Shape).ShapeCasts ⟨2, ![1, N]⟩)
    (hb : (⟨2, ![1, N]⟩ : Shape).Broadcasts ⟨2, ![M, N]⟩) (hφ : FTy.bf16.bits < FTy.f32.bits) (p : Fin M) (o : Fin N) :
    (truncf .bf16 (maximumf (addf (matmul d prec X (shapeCast ⟨2, ![K, N]⟩ W hW) (constant ⟨2, ![M, N]⟩ .f32 0x00000000#32))
        (broadcastTo ⟨2, ![M, N]⟩ (shapeCast ⟨2, ![1, N]⟩ b hb1) hb))
        (broadcast ⟨2, ![M, N]⟩ (Scalar.ofBits (F := Ideal) .f32 0x00000000#32))) hφ : FVec Ideal ⟨2, ![M, N]⟩ .bf16) (ix2 p o)
      = Cert.Spec.act (fun k => X (ix2 p k)) (fun k j => W (ix2 k j)) (fun j => b (ix2 (0 : Fin 1) j)) o := by
  rw [truncf_apply, maximumf_apply, broadcast_apply, affine_apply d hlc hrc hln hrn hlb hrb]
  unfold Cert.Spec.act
  exact congrArg (max _) Ideal.ofBits_zero_f32

end Cert.KernelLayer

end
-- ==== Proof.KernelSoftplus.lean ====
/-
  The body's column of softplus values summed to a scalar, over the extended reals.

  The body holds a column `a : [R, 1]` (the logits of a tile's rows, or their negatives), applies
  `log (1 + exp ·)` entry by entry in the form
      if a - 0 ≠ a - 0 then a + 0 else max a 0 + log1p (exp (0 - |a - 0|))
  (the guard tests for a NaN and never fires on an extended real; `|x| = max x (-x)`), views the column as `[1, R, 1]`,
  sums over its last two axes into `[1]`, and reads the one entry out. The result is the sum over the `R` rows of
  `Cert.Spec.sp` of the column's entries.
-/
import Idealize.ShloMosaic.Lib.ValueLayout
import Idealize.ShloMosaic.Lib.Pipeline.Value
import Idealize.ShloMosaic.PureOps.Ideal.Laws
import proofs.«136568_j9869834846413_2_alg».proof.Proof.Spec

noncomputable section

namespace Cert.KernelSoftplus

open Idealize.ShloMosaic Idealize.ShloMosaic.ValueIdx

/-- One entry: the guarded form is `sp` (`x ≠ x` is false, `a - 0 = a`, `0 - b = -b`). -/
theorem sp_form (a z : EReal) (hz : z = 0) :
    Scalar.select (Ideal.cmp .one (a - z) (a - z)) (a + z)
        (max a z + Ideal.log1p (Ideal.exp (z - max (a - z) (-(a - z))))) = Cert.Spec.sp a := by
  subst hz
  have h : Ideal.cmp .one (a - 0) (a - 0) = 0#1 := by simp [Ideal.cmp]
  rw [h, select_zero, sub_zero, zero_sub]
  rfl

/-- The rows of a `[1, R, 1]` array. -/
def rowIdx (R : ℕ) : Fin R ≃ (⟨3, ![1, R, 1]⟩ : Shape).Idx where
  toFun r := ix3 (0 : Fin 1) r (0 : Fin 1)
  invFun j := j 1
  left_inv _ := rfl
  right_inv j := by
    funext a
    match a with
    | ⟨0, _⟩ => exact Fin.ext (by have h := (j 0).isLt; change (j 0).val < 1 at h; show 0 = (j 0).val; omega)
    | ⟨1, _⟩ => rfl
    | ⟨2, _⟩ => exact Fin.ext (by have h := (j 2).isLt; change (j 2).val < 1 at h; show 0 = (j 2).val; omega)

/-- The column's softplus values summed over the rows. -/
theorem softplus_sum {R : ℕ} (a : FVec Ideal ⟨2, ![R, 1]⟩ .f32) (z : Ideal .f32) (hz : z = 0)
    (h1 : (⟨2, ![R, 1]⟩ : Shape).ShapeCasts ⟨3, ![1, R, 1]⟩)
    (hred : (⟨3, ![1, R, 1]⟩ : Shape).Reduces [1, 2] ⟨1, ![1]⟩) (hφ : FKind.Formats .f32)
    (hacc : (0x00000000#32 : BitVec FTy.f32.bits) = FKind.add.neutral .f32 hφ)
    (h2 : (⟨1, ![1]⟩ : Shape).ShapeCasts ⟨3, ![1, 1, 1]⟩)
    (hpos : ∀ b : Fin 3, (![0, 0, 0] : Fin 3 → ℕ) b < (⟨3, ![1, 1, 1]⟩ : Shape).size b) :
    extractAt ![0, 0, 0] (shapeCast ⟨3, ![1, 1, 1]⟩ (multiReduction .add [1, 2] ⟨1, ![1]⟩
        (shapeCast ⟨3, ![1, R, 1]⟩
          (select (cmpf .one (subf a (broadcast _ z)) (subf a (broadcast _ z))) (addf a (broadcast _ z))
            (addf (maximumf a (broadcast _ z)) (log1p (exp (subf (broadcast _ z) (absf (subf a (broadcast _ z)))))))) h1)
        0x00000000#32 hred hφ hacc) h2) hpos
      = ∑ r : Fin R, Cert.Spec.sp (a (ix2 r (0 : Fin 1))) := by
  unfold extractAt
  rw [show ∀ (v : (⟨1, ![1]⟩ : Shape).Idx → Ideal .f32) (j : (⟨3, ![1, 1, 1]⟩ : Shape).Idx),
      shapeCast ⟨3, ![1, 1, 1]⟩ v h2 j = v (Shape.reshapeEquiv h2 j) from fun _ _ => rfl]
  rw [Ideal.multiReduction_add_total _ _ hred (fun b => by match b with | ⟨0, _⟩ => rfl) hφ hacc,
    ← Equiv.sum_comp (rowIdx R)]
  refine Finset.sum_congr rfl fun r _ => ?_
  show shapeCast ⟨3, ![1, R, 1]⟩ _ h1 (ix3 (0 : Fin 1) r (0 : Fin 1)) = _
  rw [shapeCast_ab_1ab_apply]
  exact sp_form (a (ix2 r (0 : Fin 1))) z hz

end Cert.KernelSoftplus

end
-- ==== Proof.KernelBody.lean ====
/-
  What the kernel's body stores, read at the two entries the host reads back.

  At a grid point the body holds a tile of 1024 rows (the fake batch's tile in the first half of the grid, the real
  batch's in the second: `pick`), the four layers' weight and bias tiles at the padded widths, and stores an `[8, 128]`
  tile whose entry `(0, 0)` is the sum over the 1024 rows of `sp (-z)` and whose entry `(0, 1)` is the sum of `sp z`,
  `z` the row's logit at the padded widths (`Cert.Spec.logitQ` of the tiles); every other entry is `0` and is never read.
-/
import proofs.«136568_j9869834846413_2_alg».proof.Proof.FrameKernelIdeal
import proofs.«136568_j9869834846413_2_alg».proof.Proof.SpecPadded
import proofs.«136568_j9869834846413_2_alg».proof.Proof.KernelLayer
import proofs.«136568_j9869834846413_2_alg».proof.Proof.KernelSoftplus

noncomputable section

namespace Cert.KernelIdeal.Body

open Idealize.ShloMosaic Idealize.ShloMosaic.ValueIdx
open Cert.KernelIdeal Cert.KernelIdeal.Gen Cert.KernelIdeal.Facts₀

/-- The weight and bias tiles as parameters at the padded widths. -/
def tileQ (x2 : Vec Ideal S512x1024 .f32) (x3 : Vec Ideal S1x1024 .f32) (x4 : Vec Ideal S1024x512 .bf16)
    (x5 : Vec Ideal S1x512 .f32) (x6 : Vec Ideal S512x256 .bf16) (x7 : Vec Ideal S1x256 .f32)
    (x8 : Vec Ideal S256x128 .bf16) (x9 : Vec Ideal S1x128 .f32) : Cert.Spec.PParams where
  W1 := fun k j => x2 (ix2 k j)
  b1 := fun j => x3 (ix2 (0 : Fin 1) j)
  W2 := fun k j => x4 (ix2 k j)
  b2 := fun j => x5 (ix2 (0 : Fin 1) j)
  W3 := fun k j => x6 (ix2 k j)
  b3 := fun j => x7 (ix2 (0 : Fin 1) j)
  W4 := fun k j => x8 (ix2 k j)
  b4 := fun j => x9 (ix2 (0 : Fin 1) j)

/-- The tile the body works on: the first operand's in the first 64 grid points, the second's after. -/
def pick (i : grid0.Coords) (x0 x1 : Vec Ideal S1024x512 .f32) : Vec Ideal S1024x512 .f32 :=
  Scalar.select (Scalar.cmpi .slt (BitVec.ofNat 32 (i 0).val) 64#32) x0 x1

/-- Row `r` of a tile. -/
def tileRow (x : Vec Ideal S1024x512 .f32) (r : Fin 1024) : Fin 512 → EReal := fun k => x (ix2 r k)

/-- The third hidden layer's activations, at row `r` and unit `j`. -/
theorem pay2_apply (i : grid0.Coords) (x0 x1 : Vec Ideal S1024x512 .f32) (x2 : Vec Ideal S512x1024 .f32)
    (x3 : Vec Ideal S1x1024 .f32) (x4 : Vec Ideal S1024x512 .bf16) (x5 : Vec Ideal S1x512 .f32)
    (x6 : Vec Ideal S512x256 .bf16) (x7 : Vec Ideal S1x256 .f32) (x8 : Vec Ideal S256x128 .bf16)
    (x9 : Vec Ideal S1x128 .f32) (r : Fin 1024) (j : Fin 256) :
    k0_pay2 (F := Ideal) i x0 x1 x2 x3 x4 x5 x6 x7 (ix2 r j)
      = Cert.Spec.hidden3 (tileQ x2 x3 x4 x5 x6 x7 x8 x9) (tileRow (pick i x0 x1) r) j := by
  unfold k0_pay2
  try dsimp only
  refine (Cert.KernelLayer.hidden_apply dot_S1024x512_S512x256_S1024x256_1_0_0_1_n_n rfl rfl rfl rfl rfl rfl none
    _ x6 _ x7 _ _ _ r j).trans ?_
  unfold Cert.Spec.hidden3
  refine congrArg (fun h => Cert.Spec.act h _ _ j) (funext fun k => ?_)
  refine (Cert.KernelLayer.hidden_apply dot_S1024x1024_S1024x512_S1024x512_1_0_0_1_n_n rfl rfl rfl rfl rfl rfl none
    _ x4 _ x5 _ _ _ r k).trans ?_
  refine congrArg (fun h => Cert.Spec.act h _ _ k) (funext fun k' => ?_)
  exact Cert.KernelLayer.hidden_apply dot_S1024x512_S512x1024_S1024x1024_1_0_0_1_n_n rfl rfl rfl rfl rfl rfl
    (some .fp32) _ x2 _ x3 _ _ _ r k'

/-- The logit column at row `r`: the last affine layer's column `0`. -/
theorem pay3_apply (v33 : FVec Ideal S1024x256 .bf16) (x8 : Vec Ideal S256x128 .bf16) (x9 : Vec Ideal S1x128 .f32)
    (r : Fin 1024) :
    k0_pay3 (F := Ideal) v33 x8 x9 (ix2 r (0 : Fin 1))
      = Cert.Spec.dense (fun k => v33 (ix2 r k)) (fun k j => x8 (ix2 k j)) (fun j => x9 (ix2 (0 : Fin 1) j))
          (0 : Fin 128) := by
  unfold k0_pay3
  try dsimp only
  refine (slice2_axis1_apply 0 _ _ r (0 : Fin 1) (0 : Fin 128) rfl).trans ?_
  exact Cert.KernelLayer.affine_apply dot_S1024x256_S256x128_S1024x128_1_0_0_1_n_n rfl rfl rfl rfl rfl rfl none
    v33 x8 _ x9 _ _ r (0 : Fin 128)

/-- The first scalar the body stores: the rows' `sp (-z)` summed. -/
theorem pay4_eq (v33 : FVec Ideal S1024x256 .bf16) (x8 : Vec Ideal S256x128 .bf16) (x9 : Vec Ideal S1x128 .f32) :
    k0_pay4 (F := Ideal) v33 x8 x9
      = ∑ r : Fin 1024, Cert.Spec.sp (-(k0_pay3 (F := Ideal) v33 x8 x9 (ix2 r (0 : Fin 1)))) := by
  unfold k0_pay4
  try dsimp only
  refine (Cert.KernelSoftplus.softplus_sum _ _ Ideal.ofBits_zero_f32 _ _ _ _ _ _).trans ?_
  refine Finset.sum_congr rfl fun r _ => congrArg Cert.Spec.sp ?_
  show Ideal.ofBits .f32 0x00000000#32 - _ = _
  rw [Ideal.ofBits_zero_f32, zero_sub]

/-- The second: the rows' `sp z` summed. -/
theorem pay5_eq (v33 : FVec Ideal S1024x256 .bf16) (x8 : Vec Ideal S256x128 .bf16) (x9 : Vec Ideal S1x128 .f32) :
    k0_pay5 (F := Ideal) v33 x8 x9
      = ∑ r : Fin 1024, Cert.Spec.sp (k0_pay3 (F := Ideal) v33 x8 x9 (ix2 r (0 : Fin 1))) := by
  unfold k0_pay5
  try dsimp only
  exact Cert.KernelSoftplus.softplus_sum _ _ Ideal.ofBits_zero_f32 _ _ _ _ _ _

/-- The stored tile holds the first scalar at `(0, 0)` … -/
theorem tile_00 (u v : Ideal .f32) :
    k0_pay1 (F := Ideal) u v (iota .tc S8x128 32 [0] Facts₀.iota_S8x128_d0_w32) (iota .tc S8x128 32 [1] Facts₀.iota_S8x128_d1_w32)
      k0_pay6 (ix2 (0 : Fin 8) (0 : Fin 128)) = u := by
  unfold k0_pay1 k0_pay6
  rfl

/-- … and the second at `(0, 1)`. -/
theorem tile_01 (u v : Ideal .f32) :
    k0_pay1 (F := Ideal) u v (iota .tc S8x128 32 [0] Facts₀.iota_S8x128_d0_w32) (iota .tc S8x128 32 [1] Facts₀.iota_S8x128_d1_w32)
      k0_pay6 (ix2 (0 : Fin 8) (1 : Fin 128)) = v := by
  unfold k0_pay1 k0_pay6
  rfl

/-- A row's logit at the padded widths, from the logit column. -/
theorem logit_col (i : grid0.Coords) (x0 x1 : Vec Ideal S1024x512 .f32) (x2 : Vec Ideal S512x1024 .f32)
    (x3 : Vec Ideal S1x1024 .f32) (x4 : Vec Ideal S1024x512 .bf16) (x5 : Vec Ideal S1x512 .f32)
    (x6 : Vec Ideal S512x256 .bf16) (x7 : Vec Ideal S1x256 .f32) (x8 : Vec Ideal S256x128 .bf16)
    (x9 : Vec Ideal S1x128 .f32) (r : Fin 1024) :
    k0_pay3 (F := Ideal) (k0_pay2 (F := Ideal) i x0 x1 x2 x3 x4 x5 x6 x7) x8 x9 (ix2 r (0 : Fin 1))
      = Cert.Spec.logitQ (tileQ x2 x3 x4 x5 x6 x7 x8 x9) (tileRow (pick i x0 x1) r) := by
  rw [pay3_apply]
  unfold Cert.Spec.logitQ
  exact congrArg (fun h => Cert.Spec.dense h _ _ (0 : Fin 128))
    (funext fun k => pay2_apply i x0 x1 x2 x3 x4 x5 x6 x7 x8 x9 r k)

theorem hz : (![0, 0] : Fin 2 → Nat) = fun _ => 0 := funext fun a => by fin_cases a <;> rfl

/-- What the body leaves in the output window's buffer, at entry `(0, 0)`: the tile's rows' `sp (-z)` summed. -/
theorem out_00 (i : grid0.Coords) (x0 x1 : Vec Ideal S1024x512 .f32) (x2 : Vec Ideal S512x1024 .f32)
    (x3 : Vec Ideal S1x1024 .f32) (x4 : Vec Ideal S1024x512 .bf16) (x5 : Vec Ideal S1x512 .f32)
    (x6 : Vec Ideal S512x256 .bf16) (x7 : Vec Ideal S1x256 .f32) (x8 : Vec Ideal S256x128 .bf16)
    (x9 : Vec Ideal S1x128 .f32) :
    Cert.KernelIdeal.GenP.out0_10 (F := Ideal) i x0 x1 x2 x3 x4 x5 x6 x7 x8 x9 (ix2 (0 : Fin 8) (0 : Fin 128))
      = ∑ r : Fin 1024, Cert.Spec.sp (-(Cert.Spec.logitQ (tileQ x2 x3 x4 x5 x6 x7 x8 x9) (tileRow (pick i x0 x1) r))) := by
  unfold Cert.KernelIdeal.GenP.out0_10
  rw [View.canon_unit_zero hz]
  simp only [View.ld_unit_zero (S := S1024x512) hz, View.ld_unit_zero (S := S512x1024) hz,
    View.ld_unit_zero (S := S1x1024) hz, View.ld_unit_zero (S := S1x512) hz, View.ld_unit_zero (S := S512x256) hz,
    View.ld_unit_zero (S := S1x256) hz, View.ld_unit_zero (S := S256x128) hz, View.ld_unit_zero (S := S1x128) hz]
  rw [tile_00, pay4_eq]
  exact Finset.sum_congr rfl fun r _ => congrArg (fun z => Cert.Spec.sp (-z)) (logit_col i x0 x1 x2 x3 x4 x5 x6 x7 x8 x9 r)

/-- … and at entry `(0, 1)`: the rows' `sp z` summed. -/
theorem out_01 (i : grid0.Coords) (x0 x1 : Vec Ideal S1024x512 .f32) (x2 : Vec Ideal S512x1024 .f32)
    (x3 : Vec Ideal S1x1024 .f32) (x4 : Vec Ideal S1024x512 .bf16) (x5 : Vec Ideal S1x512 .f32)
    (x6 : Vec Ideal S512x256 .bf16) (x7 : Vec Ideal S1x256 .f32) (x8 : Vec Ideal S256x128 .bf16)
    (x9 : Vec Ideal S1x128 .f32) :
    Cert.KernelIdeal.GenP.out0_10 (F := Ideal) i x0 x1 x2 x3 x4 x5 x6 x7 x8 x9 (ix2 (0 : Fin 8) (1 : Fin 128))
      = ∑ r : Fin 1024, Cert.Spec.sp (Cert.Spec.logitQ (tileQ x2 x3 x4 x5 x6 x7 x8 x9) (tileRow (pick i x0 x1) r)) := by
  unfold Cert.KernelIdeal.GenP.out0_10
  rw [View.canon_unit_zero hz]
  simp only [View.ld_unit_zero (S := S1024x512) hz, View.ld_unit_zero (S := S512x1024) hz,
    View.ld_unit_zero (S := S1x1024) hz, View.ld_unit_zero (S := S1x512) hz, View.ld_unit_zero (S := S512x256) hz,
    View.ld_unit_zero (S := S1x256) hz, View.ld_unit_zero (S := S256x128) hz, View.ld_unit_zero (S := S1x128) hz]
  rw [tile_01, pay5_eq]
  exact Finset.sum_congr rfl fun r _ => congrArg Cert.Spec.sp (logit_col i x0 x1 x2 x3 x4 x5 x6 x7 x8 x9 r)

end Cert.KernelIdeal.Body

end
-- ==== Proof.LibPadZero.lean ====
/-
  A host `pad` with the padding value `0`, on the high side only, read at an index.

  `stablehlo.pad` with no low padding and no interior padding copies the operand into the low corner of a larger array
  and fills the rest with the padding value. When that value is `0` the result, as a `Fin`-indexed function, is the
  operand extended by zeros: `Cert.Spec.padM` for a matrix padded on both axes, `Cert.Spec.padV` for a vector.
  General in the extents and the amounts of padding.
-/
import Idealize.ShloMosaic.Lib.KernelVsHost
import Idealize.ShloMosaic.Lib.ValueIdx
import proofs.«136568_j9869834846413_2_alg».proof.Proof.Spec

noncomputable section

namespace Cert.Lib.PadZero

open Idealize.ShloMosaic Idealize.ShloMosaic.ValueIdx

/-- A matrix zero-padded on the high side of both axes, read at `(k, j)`. -/
theorem pad2_zero_apply {K N K' N' : ℕ} (hk hn : ℕ) (x : (⟨2, ![K, N]⟩ : Shape).Idx → EReal) {u : Shape}
    (v : u.Idx → EReal)
    (h : (⟨2, ![K, N]⟩ : Shape).Pads (![0, 0] : Fin 2 → ℕ) ![hk, hn] ![0, 0] ⟨2, ![K', N']⟩) (hu : 0 < u.numel)
    (hv : v (Shape.Idx.first hu) = 0) (k : Fin K') (j : Fin N') :
    pad ⟨2, ![K', N']⟩ (![0, 0] : Fin 2 → ℕ) ![hk, hn] ![0, 0] x v h hu (ix2 k j)
      = Cert.Spec.padM K' N' (fun a b => x (ix2 a b)) k j := by
  unfold Cert.Spec.padM
  by_cases hh : k.val < K ∧ j.val < N
  · rw [dif_pos hh]
    refine pad_apply_of_inside _ _ _ x v h hu (ix2 k j) (ix2 ⟨k.val, hh.1⟩ ⟨j.val, hh.2⟩) fun a => ?_
    match a with
    | ⟨0, _⟩ => show k.val = 0 + k.val * (0 + 1); omega
    | ⟨1, _⟩ => show j.val = 0 + j.val * (0 + 1); omega
  · rw [dif_neg hh]
    rcases not_and_or.mp hh with h0 | h1
    · refine (pad_apply_of_not_inside _ _ _ x v h hu (ix2 k j) ⟨0, Nat.zero_lt_succ _⟩ fun hc => h0 ?_).trans hv
      have h2 : (k.val - 0) / (0 + 1) < K := hc.2.2
      simpa using h2
    · refine (pad_apply_of_not_inside _ _ _ x v h hu (ix2 k j) ⟨1, Nat.one_lt_two⟩ fun hc => h1 ?_).trans hv
      have h2 : (j.val - 0) / (0 + 1) < N := hc.2.2
      simpa using h2

/-- A vector zero-padded on its high side, read at `j`. -/
theorem pad1_zero_apply {N N' : ℕ} (hn : ℕ) (x : (⟨1, ![N]⟩ : Shape).Idx → EReal) {u : Shape} (v : u.Idx → EReal)
    (h : (⟨1, ![N]⟩ : Shape).Pads (![0] : Fin 1 → ℕ) ![hn] ![0] ⟨1, ![N']⟩) (hu : 0 < u.numel)
    (hv : v (Shape.Idx.first hu) = 0) (j : Fin N') :
    pad ⟨1, ![N']⟩ (![0] : Fin 1 → ℕ) ![hn] ![0] x v h hu (ix1 j) = Cert.Spec.padV N' (fun a => x (ix1 a)) j := by
  unfold Cert.Spec.padV
  by_cases hh : j.val < N
  · rw [dif_pos hh]
    refine pad_apply_of_inside _ _ _ x v h hu (ix1 j) (ix1 ⟨j.val, hh⟩) fun a => ?_
    match a with
    | ⟨0, _⟩ => show j.val = 0 + j.val * (0 + 1); omega
  · rw [dif_neg hh]
    refine (pad_apply_of_not_inside _ _ _ x v h hu (ix1 j) ⟨0, Nat.zero_lt_succ _⟩ fun hc => hh ?_).trans hv
    have h2 : (j.val - 0) / (0 + 1) < N := hc.2.2
    simpa using h2

/-- The padding value the host computes — the integer `0` converted to a float — is `0`. -/
theorem sitofp_zero (s : Shape) (i : s.Idx) :
    (sitofp .f32 (constantI s 32 0#32) : FVec Ideal s .f32) i = 0 := by
  show (((0#32 : BitVec 32).toInt : ℝ) : EReal) = 0
  simp

end Cert.Lib.PadZero

end
-- ==== Proof.KernelHost.lean ====
/-
  The arrays the kernel's region finds, in terms of the program's arguments.

  Before the region the host zero-pads each weight matrix and bias vector to the kernel's widths (the padding value is
  the integer `0` converted to a float), reshapes each padded bias to one row, and changes the float format of three of
  the padded matrices (the identity on exact values). Read at an index, each such array is the argument extended by
  zeros: `Cert.Spec.padM` / `Cert.Spec.padV` of the argument.
-/
import proofs.«136568_j9869834846413_2_alg».proof.Proof.FrameKernelIdeal
import proofs.«136568_j9869834846413_2_alg».proof.Proof.LibPadZero
import Idealize.ShloMosaic.Lib.ValueLayout
import Idealize.ShloMosaic.Lib.StableHlo.Run

noncomputable section

namespace Cert.KernelIdeal.Host

open Idealize.ShloMosaic Idealize.ShloMosaic.TcCoe Idealize.ShloMosaic.ValueIdx Idealize.SL.Sem
open Cert.KernelIdeal Cert.KernelIdeal.Gen Cert.KernelIdeal.GenP Cert.Lib.PadZero

variable (m : (ℓ : Loc nD τ sig) → Buf (Elt Ideal) ℓ)

/-! ## The host operations' terms -/

theorem V_v0 (c : Dev nD) : (V m c main_v0 : S512x1024.Idx → EReal)
    = pad S512x1024 ![0, 0] ![0, 24] ![0, 0] (m ((c : Thread nD τ).loc main_arg2)) (sitofp (F := Ideal) .f32 (constantI S_ 32 0#32)) Facts₀.pads_S512x1000_S512x1024_000_0240 Facts₀.h_S_ := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v2 (c : Dev nD) : (V m c main_v2 : S1x1024.Idx → EReal)
    = shapeCast S1x1024 (pad S1024 ![0] ![24] ![0] (m ((c : Thread nD τ).loc main_arg3)) (sitofp (F := Ideal) .f32 (constantI S_ 32 0#32)) Facts₀.pads_S1000_S1024_0240 Facts₀.h_S_) Facts₀.shapeCasts_S1024_S1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v4 (c : Dev nD) : (V m c main_v4 : S1024x512.Idx → EReal)
    = truncf .bf16 (pad S1024x512 ![0, 0] ![24, 12] ![0, 0] (m ((c : Thread nD τ).loc main_arg4)) (sitofp (F := Ideal) .f32 (constantI S_ 32 0#32)) Facts₀.pads_S1000x500_S1024x512_0240_0120 Facts₀.h_S_) Facts₀.bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v6 (c : Dev nD) : (V m c main_v6 : S1x512.Idx → EReal)
    = shapeCast S1x512 (pad S512 ![0] ![12] ![0] (m ((c : Thread nD τ).loc main_arg5)) (sitofp (F := Ideal) .f32 (constantI S_ 32 0#32)) Facts₀.pads_S500_S512_0120 Facts₀.h_S_) Facts₀.shapeCasts_S512_S1x512 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v8 (c : Dev nD) : (V m c main_v8 : S512x256.Idx → EReal)
    = truncf .bf16 (pad S512x256 ![0, 0] ![12, 6] ![0, 0] (m ((c : Thread nD τ).loc main_arg6)) (sitofp (F := Ideal) .f32 (constantI S_ 32 0#32)) Facts₀.pads_S500x250_S512x256_0120_060 Facts₀.h_S_) Facts₀.bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v10 (c : Dev nD) : (V m c main_v10 : S1x256.Idx → EReal)
    = shapeCast S1x256 (pad S256 ![0] ![6] ![0] (m ((c : Thread nD τ).loc main_arg7)) (sitofp (F := Ideal) .f32 (constantI S_ 32 0#32)) Facts₀.pads_S250_S256_060 Facts₀.h_S_) Facts₀.shapeCasts_S256_S1x256 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v12 (c : Dev nD) : (V m c main_v12 : S256x128.Idx → EReal)
    = truncf .bf16 (pad S256x128 ![0, 0] ![6, 127] ![0, 0] (m ((c : Thread nD τ).loc main_arg8)) (sitofp (F := Ideal) .f32 (constantI S_ 32 0#32)) Facts₀.pads_S250x1_S256x128_060_01270 Facts₀.h_S_) Facts₀.bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem V_v14 (c : Dev nD) : (V m c main_v14 : S1x128.Idx → EReal)
    = shapeCast S1x128 (pad S128 ![0] ![127] ![0] (m ((c : Thread nD τ).loc main_arg9)) (sitofp (F := Ideal) .f32 (constantI S_ 32 0#32)) Facts₀.pads_S1_S128_01270 Facts₀.h_S_) Facts₀.shapeCasts_S128_S1x128 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

/-! ## Read at an index -/

theorem W1_at (c : Dev nD) (k : Fin 512) (j : Fin 1024) :
    (V m c main_v0 : S512x1024.Idx → EReal) (ix2 k j) = Cert.Spec.padM 512 1024 (fun a b => (m ((c : Thread nD τ).loc main_arg2)) (ix2 a b)) k j := by
  rw [V_v0]; exact pad2_zero_apply 0 24 _ _ _ _ (sitofp_zero _ _) k j

theorem b1_at (c : Dev nD) (j : Fin 1024) :
    (V m c main_v2 : S1x1024.Idx → EReal) (ix2 (0 : Fin 1) j) = Cert.Spec.padV 1024 (fun a => (m ((c : Thread nD τ).loc main_arg3)) (ix1 a)) j := by
  rw [V_v2, shapeCast_a_1a_apply]; exact pad1_zero_apply 24 _ _ _ _ (sitofp_zero _ _) j

theorem W2_at (c : Dev nD) (k : Fin 1024) (j : Fin 512) :
    (V m c main_v4 : S1024x512.Idx → EReal) (ix2 k j) = Cert.Spec.padM 1024 512 (fun a b => (m ((c : Thread nD τ).loc main_arg4)) (ix2 a b)) k j := by
  rw [V_v4, truncf_apply]; exact pad2_zero_apply 24 12 _ _ _ _ (sitofp_zero _ _) k j

theorem b2_at (c : Dev nD) (j : Fin 512) :
    (V m c main_v6 : S1x512.Idx → EReal) (ix2 (0 : Fin 1) j) = Cert.Spec.padV 512 (fun a => (m ((c : Thread nD τ).loc main_arg5)) (ix1 a)) j := by
  rw [V_v6, shapeCast_a_1a_apply]; exact pad1_zero_apply 12 _ _ _ _ (sitofp_zero _ _) j

theorem W3_at (c : Dev nD) (k : Fin 512) (j : Fin 256) :
    (V m c main_v8 : S512x256.Idx → EReal) (ix2 k j) = Cert.Spec.padM 512 256 (fun a b => (m ((c : Thread nD τ).loc main_arg6)) (ix2 a b)) k j := by
  rw [V_v8, truncf_apply]; exact pad2_zero_apply 12 6 _ _ _ _ (sitofp_zero _ _) k j

theorem b3_at (c : Dev nD) (j : Fin 256) :
    (V m c main_v10 : S1x256.Idx → EReal) (ix2 (0 : Fin 1) j) = Cert.Spec.padV 256 (fun a => (m ((c : Thread nD τ).loc main_arg7)) (ix1 a)) j := by
  rw [V_v10, shapeCast_a_1a_apply]; exact pad1_zero_apply 6 _ _ _ _ (sitofp_zero _ _) j

theorem W4_at (c : Dev nD) (k : Fin 256) (j : Fin 128) :
    (V m c main_v12 : S256x128.Idx → EReal) (ix2 k j) = Cert.Spec.padM 256 128 (fun a b => (m ((c : Thread nD τ).loc main_arg8)) (ix2 a b)) k j := by
  rw [V_v12, truncf_apply]; exact pad2_zero_apply 6 127 _ _ _ _ (sitofp_zero _ _) k j

theorem b4_at (c : Dev nD) (j : Fin 128) :
    (V m c main_v14 : S1x128.Idx → EReal) (ix2 (0 : Fin 1) j) = Cert.Spec.padV 128 (fun a => (m ((c : Thread nD τ).loc main_arg9)) (ix1 a)) j := by
  rw [V_v14, shapeCast_a_1a_apply]; exact pad1_zero_apply 127 _ _ _ _ (sitofp_zero _ _) j

end Cert.KernelIdeal.Host

end
-- ==== Proof.KernelBlocks.lean ====
/-
  From the grid points' blocks to the kernel's output array.

  The grid has 128 points. At point `t` the first operand's block is rows `1024 · min t 63 …` of the fake batch and the
  second's is rows `1024 · (t - 64) …` of the real batch (each index map stays put while the other half of the grid
  runs), and the body picks the first when `t < 64` and the second otherwise: so the tile it works on is block `t` of the
  fake batch for `t < 64` and block `t - 64` of the real batch for `t ≥ 64`. The eight weight and bias windows are whole
  arrays at every point. The output window's block at point `t` is rows `8 t … 8 t + 7` of the output array; the 128
  blocks tile it, so the array ends holding at row `8 t + a`, column `b`, what point `t` stored at `(a, b)`.
-/
import proofs.«136568_j9869834846413_2_alg».proof.Proof.KernelBody
import proofs.«136568_j9869834846413_2_alg».proof.Proof.KernelHost

set_option maxRecDepth 16384
set_option maxHeartbeats 400000

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.KernelIdeal.Body Cert.KernelIdeal.Host

variable (m : (ℓ : Loc nD τ sig) → Buf (Elt Ideal) ℓ)

/-! ## The printed index maps, decided over the grid -/

theorem idx_facts : ∀ t : Fin cfg0.N,
    win0_0.index t (0 : Fin 2) = min t.val 63 ∧ win0_0.index t (1 : Fin 2) = 0
    ∧ win0_1.index t (0 : Fin 2) = t.val - 64 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The body's test of the grid position, decided over the grid. -/
theorem is_fake : ∀ t : Fin cfg0.N,
    Scalar.cmpi .slt (BitVec.ofNat 32 (grid0.coords t 0).val) 64#32 = BitVec.ofBool (decide (t.val < 64)) :=
  (by decide +kernel : ∀ t : Fin grid0.N, _)

/-! ## The input blocks -/

/-- In the first half of the grid the body's tile is block `t` of the fake batch. -/
theorem tile_row_fake (c : Dev nD) (t : Fin cfg0.N) (h : t.val < 64) (r : Fin 1024) :
    tileRow (pick (grid0.coords t) (iblk m c 0 t) (iblk m c 1 t)) r = Cert.Spec.rows (m ((c : Thread nD τ).loc main_arg0)) (Cert.Spec.row ⟨t.val, h⟩ r) := by
  unfold pick
  rw [is_fake t, decide_eq_true h]
  show tileRow (iblk m c 0 t) r = _
  funext k
  obtain ⟨e0, e1, -⟩ := idx_facts t
  show V m c main_arg0 (((cfg0.win 0).blk t).view.emb (ix2 r k)) = (m ((c : Thread nD τ).loc main_arg0)) (ix2 (Cert.Spec.row ⟨t.val, h⟩ r) k)
  rw [V_main_arg0]
  refine congrArg _ (funext fun a => Fin.ext ?_)
  match a with
  | ⟨0, _⟩ => show win0_0.index t (0 : Fin 2) * 1024 + 1 * r.val = 1024 * t.val + r.val; rw [e0]; omega
  | ⟨1, _⟩ => show win0_0.index t (1 : Fin 2) * 512 + 1 * k.val = k.val; rw [e1]; omega

/-- In the second half it is block `t - 64` of the real batch. -/
theorem tile_row_real (c : Dev nD) (t : Fin cfg0.N) (h : 64 ≤ t.val) (r : Fin 1024) :
    tileRow (pick (grid0.coords t) (iblk m c 0 t) (iblk m c 1 t)) r
      = Cert.Spec.rows (m ((c : Thread nD τ).loc main_arg1)) (Cert.Spec.row ⟨t.val - 64, by have := t.isLt; change t.val < 128 at this; omega⟩ r) := by
  unfold pick
  rw [is_fake t, decide_eq_false (not_lt.mpr h)]
  show tileRow (iblk m c 1 t) r = _
  funext k
  obtain ⟨-, -, e0, e1, -⟩ := idx_facts t
  show V m c main_arg1 (((cfg0.win 1).blk t).view.emb (ix2 r k)) = (m ((c : Thread nD τ).loc main_arg1)) (ix2 (Cert.Spec.row ⟨t.val - 64, _⟩ r) k)
  rw [V_main_arg1]
  refine congrArg _ (funext fun a => Fin.ext ?_)
  match a with
  | ⟨0, _⟩ => show win0_1.index t (0 : Fin 2) * 1024 + 1 * r.val = 1024 * (t.val - 64) + r.val; rw [e0]; omega
  | ⟨1, _⟩ => show win0_1.index t (1 : Fin 2) * 512 + 1 * k.val = k.val; rw [e1]; omega

/-- The program's parameters. -/
def P (c : Dev nD) : Cert.Spec.Params :=
  Cert.Spec.params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Window 2's block at any point is the whole padded array. -/
theorem blk2_at (c : Dev nD) (t : Fin cfg0.N) (k : Fin 512) (j : Fin 1024) :
    (iblk m c 2 t (ix2 k j) : EReal) = Cert.Spec.padM 512 1024 (fun a b => (m ((c : Thread nD τ).loc main_arg2)) (ix2 a b)) k j := by
  obtain ⟨-, -, -, -, e0, e1, -⟩ := idx_facts t
  refine Eq.trans ?_ (W1_at m c k j)
  show V m c main_v0 (((cfg0.win 2).blk t).view.emb (ix2 k j)) = _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 1024 + 1 * j.val = j.val; rw [e1]; omega

/-- Window 3's block at any point is the whole padded bias row. -/
theorem blk3_at (c : Dev nD) (t : Fin cfg0.N) (j : Fin 1024) :
    (iblk m c 3 t (ix2 (0 : Fin 1) j) : EReal) = Cert.Spec.padV 1024 (fun a => (m ((c : Thread nD τ).loc main_arg3)) (ix1 a)) j := by
  obtain ⟨-, -, -, -, -, -, e0, e1, -⟩ := idx_facts t
  refine Eq.trans ?_ (b1_at m c j)
  show V m c main_v2 (((cfg0.win 3).blk t).view.emb (ix2 (0 : Fin 1) j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * j.val = j.val; rw [e1]; omega

/-- Window 4's block at any point is the whole padded array. -/
theorem blk4_at (c : Dev nD) (t : Fin cfg0.N) (k : Fin 1024) (j : Fin 512) :
    (iblk m c 4 t (ix2 k j) : EReal) = Cert.Spec.padM 1024 512 (fun a b => (m ((c : Thread nD τ).loc main_arg4)) (ix2 a b)) k j := by
  obtain ⟨-, -, -, -, -, -, -, -, e0, e1, -⟩ := idx_facts t
  refine Eq.trans ?_ (W2_at m c k j)
  show V m c main_v4 (((cfg0.win 4).blk t).view.emb (ix2 k j)) = _
  refine congrArg _ (funext fun a => Fin.ext ?_)
  match a with
  | ⟨0, _⟩ => show win0_4.index t (0 : Fin 2) * 1024 + 1 * k.val = k.val; rw [e0]; omega
  | ⟨1, _⟩ => show win0_4.index t (1 : Fin 2) * 512 + 1 * j.val = j.val; rw [e1]; omega

/-- Window 5's block at any point is the whole padded bias row. -/
theorem blk5_at (c : Dev nD) (t : Fin cfg0.N) (j : Fin 512) :
    (iblk m c 5 t (ix2 (0 : Fin 1) j) : EReal) = Cert.Spec.padV 512 (fun a => (m ((c : Thread nD τ).loc main_arg5)) (ix1 a)) j := by
  obtain ⟨-, -, -, -, -, -, -, -, -, -, e0, e1, -⟩ := idx_facts t
  refine Eq.trans ?_ (b2_at m c j)
  show V m c main_v6 (((cfg0.win 5).blk t).view.emb (ix2 (0 : Fin 1) j)) = _
  refine congrArg _ (funext fun a => Fin.ext ?_)
  match a with
  | ⟨0, _⟩ => show win0_5.index t (0 : Fin 2) * 1 + 1 * 0 = 0; rw [e0]
  | ⟨1, _⟩ => show win0_5.index t (1 : Fin 2) * 512 + 1 * j.val = j.val; rw [e1]; omega

/-- Window 6's block at any point is the whole padded array. -/
theorem blk6_at (c : Dev nD) (t : Fin cfg0.N) (k : Fin 512) (j : Fin 256) :
    (iblk m c 6 t (ix2 k j) : EReal) = Cert.Spec.padM 512 256 (fun a b => (m ((c : Thread nD τ).loc main_arg6)) (ix2 a b)) k j := by
  obtain ⟨-, -, -, -, -, -, -, -, -, -, -, -, e0, e1, -⟩ := idx_facts t
  refine Eq.trans ?_ (W3_at m c k j)
  show V m c main_v8 (((cfg0.win 6).blk t).view.emb (ix2 k j)) = _
  refine congrArg _ (funext fun a => Fin.ext ?_)
  match a with
  | ⟨0, _⟩ => show win0_6.index t (0 : Fin 2) * 512 + 1 * k.val = k.val; rw [e0]; omega
  | ⟨1, _⟩ => show win0_6.index t (1 : Fin 2) * 256 + 1 * j.val = j.val; rw [e1]; omega

/-- Window 7's block at any point is the whole padded bias row. -/
theorem blk7_at (c : Dev nD) (t : Fin cfg0.N) (j : Fin 256) :
    (iblk m c 7 t (ix2 (0 : Fin 1) j) : EReal) = Cert.Spec.padV 256 (fun a => (m ((c : Thread nD τ).loc main_arg7)) (ix1 a)) j := by
  obtain ⟨-, -, -, -, -, -, -, -, -, -, -, -, -, -, e0, e1, -⟩ := idx_facts t
  refine Eq.trans ?_ (b3_at m c j)
  show V m c main_v10 (((cfg0.win 7).blk t).view.emb (ix2 (0 : Fin 1) j)) = _
  refine congrArg _ (funext fun a => Fin.ext ?_)
  match a with
  | ⟨0, _⟩ => show win0_7.index t (0 : Fin 2) * 1 + 1 * 0 = 0; rw [e0]
  | ⟨1, _⟩ => show win0_7.index t (1 : Fin 2) * 256 + 1 * j.val = j.val; rw [e1]; omega

/-- Window 8's block at any point is the whole padded array. -/
theorem blk8_at (c : Dev nD) (t : Fin cfg0.N) (k : Fin 256) (j : Fin 128) :
    (iblk m c 8 t (ix2 k j) : EReal) = Cert.Spec.padM 256 128 (fun a b => (m ((c : Thread nD τ).loc main_arg8)) (ix2 a b)) k j := by
  obtain ⟨-, -, -, -, -, -, -, -, -, -, -, -, -, -, -, -, e0, e1, -⟩ := idx_facts t
  refine Eq.trans ?_ (W4_at m c k j)
  show V m c main_v12 (((cfg0.win 8).blk t).view.emb (ix2 k j)) = _
  refine congrArg _ (funext fun a => Fin.ext ?_)
  match a with
  | ⟨0, _⟩ => show win0_8.index t (0 : Fin 2) * 256 + 1 * k.val = k.val; rw [e0]; omega
  | ⟨1, _⟩ => show win0_8.index t (1 : Fin 2) * 128 + 1 * j.val = j.val; rw [e1]; omega

/-- Window 9's block at any point is the whole padded bias row. -/
theorem blk9_at (c : Dev nD) (t : Fin cfg0.N) (j : Fin 128) :
    (iblk m c 9 t (ix2 (0 : Fin 1) j) : EReal) = Cert.Spec.padV 128 (fun a => (m ((c : Thread nD τ).loc main_arg9)) (ix1 a)) j := by
  obtain ⟨-, -, -, -, -, -, -, -, -, -, -, -, -, -, -, -, -, -, e0, e1, -⟩ := idx_facts t
  refine Eq.trans ?_ (b4_at m c j)
  show V m c main_v14 (((cfg0.win 9).blk t).view.emb (ix2 (0 : Fin 1) j)) = _
  refine congrArg _ (funext fun a => Fin.ext ?_)
  match a with
  | ⟨0, _⟩ => show win0_9.index t (0 : Fin 2) * 1 + 1 * 0 = 0; rw [e0]
  | ⟨1, _⟩ => show win0_9.index t (1 : Fin 2) * 128 + 1 * j.val = j.val; rw [e1]; omega

/-- The weight and bias tiles at any point are the zero-padded parameters. -/
theorem tileQ_eq (c : Dev nD) (t : Fin cfg0.N) :
    tileQ (iblk m c 2 t) (iblk m c 3 t) (iblk m c 4 t) (iblk m c 5 t) (iblk m c 6 t) (iblk m c 7 t) (iblk m c 8 t)
      (iblk m c 9 t) = Cert.Spec.padParams (P m c) := by
  unfold tileQ Cert.Spec.padParams P Cert.Spec.params
  congr 1
  · funext k j; exact blk2_at m c t k j
  · funext j; exact blk3_at m c t j
  · funext k j; exact blk4_at m c t k j
  · funext j; exact blk5_at m c t j
  · funext k j; exact blk6_at m c t k j
  · funext j; exact blk7_at m c t j
  · funext k j; exact blk8_at m c t k j
  · funext j; exact blk9_at m c t j

/-! ## What a point stores -/

/-- In the first half of the grid: the block's rows' `sp (-z)` at `(0, 0)` and `sp z` at `(0, 1)`, over block `t` of the
    fake batch. -/
theorem stored_fake (c : Dev nD) (t : Fin cfg0.N) (h : t.val < 64) :
    ((dats m 0 c).after 10 t (ix2 (0 : Fin 8) (0 : Fin 128)) : EReal)
        = ∑ r : Fin 1024, Cert.Spec.sp (-(Cert.Spec.logit (P m c) (Cert.Spec.rows (m ((c : Thread nD τ).loc main_arg0)) (Cert.Spec.row ⟨t.val, h⟩ r))))
    ∧ ((dats m 0 c).after 10 t (ix2 (0 : Fin 8) (1 : Fin 128)) : EReal)
        = ∑ r : Fin 1024, Cert.Spec.sp (Cert.Spec.logit (P m c) (Cert.Spec.rows (m ((c : Thread nD τ).loc main_arg0)) (Cert.Spec.row ⟨t.val, h⟩ r))) := by
  rw [after0_10]
  constructor
  · rw [out_00, tileQ_eq]
    show (_ : EReal) = _
    exact Finset.sum_congr rfl fun r _ => by rw [tile_row_fake m c t h r, Cert.Spec.logitQ_pad]
  · rw [out_01, tileQ_eq]
    show (_ : EReal) = _
    exact Finset.sum_congr rfl fun r _ => by rw [tile_row_fake m c t h r, Cert.Spec.logitQ_pad]

/-- In the second half: the same over block `t - 64` of the real batch (only `(0, 0)` is read back). -/
theorem stored_real (c : Dev nD) (t : Fin cfg0.N) (h : 64 ≤ t.val) :
    ((dats m 0 c).after 10 t (ix2 (0 : Fin 8) (0 : Fin 128)) : EReal)
        = ∑ r : Fin 1024, Cert.Spec.sp (-(Cert.Spec.logit (P m c) (Cert.Spec.rows (m ((c : Thread nD τ).loc main_arg1))
            (Cert.Spec.row ⟨t.val - 64, by have := t.isLt; change t.val < 128 at this; omega⟩ r)))) := by
  rw [after0_10, out_00, tileQ_eq]
  show (_ : EReal) = _
  exact Finset.sum_congr rfl fun r _ => by rw [tile_row_real m c t h r, Cert.Spec.logitQ_pad]

/-! ## The output array -/

/-- A row of the output array lies in one of the 128 tiles. -/
theorem div8_lt (j : S1024x128.Idx) : (j 0).val / 8 < cfg0.N := by
  have h : (j 0).val < 1024 := (j 0).isLt
  show (j 0).val / 8 < 128
  omega

/-- The output array as one function: at row `8 t + a`, column `b`, what point `t` stored at `(a, b)`. -/
def G (c : Dev nD) : S1024x128.Idx → EReal := fun j =>
  (dats m 0 c).after 10 ⟨(j 0).val / 8, div8_lt j⟩ (ix2 ⟨(j 0).val % 8, Nat.mod_lt _ (by norm_num)⟩ (j 1))

theorem G_at (c : Dev nD) (t : Fin cfg0.N) (a : Fin 8) (b : Fin 128) (j : S1024x128.Idx)
    (h0 : (j 0).val = t.val * 8 + a.val) (h1 : (j 1).val = b.val) :
    G m c j = (dats m 0 c).after 10 t (ix2 a b) := by
  unfold G
  have ht : (⟨(j 0).val / 8, div8_lt j⟩ : Fin cfg0.N) = t :=
    Fin.ext (by show (j 0).val / 8 = t.val; have := a.isLt; omega)
  rw [ht]
  refine congrArg _ (funext fun x => Fin.ext ?_)
  match x with
  | ⟨0, _⟩ => show (j 0).val % 8 = a.val; have := a.isLt; omega
  | ⟨1, _⟩ => exact h1

/-- What point `t` writes back is block `t` of `G`. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  obtain ⟨-, -, -, -, -, -, -, -, -, -, -, -, -, -, -, -, -, -, -, -, e0, e1⟩ := idx_facts t
  funext y
  show (dats m 0 c).after 10 t y = G m c (((cfg0.win 10).blk t).view.emb y)
  rw [G_at m c t (y 0) (y 1) _ (by show win0_10.index t (0 : Fin 2) * 8 + 1 * (y 0).val = _; rw [e0]; omega)
    (by show win0_10.index t (1 : Fin 2) * 128 + 1 * (y 1).val = _; rw [e1]; omega)]
  exact congrArg _ (eq_ix2 y)

theorem mem_blk (t : Fin cfg0.N) (i : S1024x128.Idx) :
    i ∈ ((cfg0.win 10).blk t).view.set ↔ ∀ a : Fin 2, win0_10.index t a * S8x128.size a ≤ (i a).val
      ∧ (i a).val < win0_10.index t a * S8x128.size a + S8x128.size a := by
  show i ∈ ((View.whole main_v15).slice (win0_10.rect t)).set ↔ _
  rw [View.set_slice_whole, Rect.mem_set_unit]
  exact Iff.rfl

/-- The 128 blocks tile the array. -/
theorem cover (i : S1024x128.Idx) : ∃ t : Fin cfg0.N, (cfg0.win 10).flush t = true ∧ i ∈ ((cfg0.win 10).blk t).view.set := by
  have hi0 : (i 0).val < 1024 := (i 0).isLt
  have hi1 : (i 1).val < 128 := (i 1).isLt
  refine ⟨⟨(i 0).val / 8, by show (i 0).val / 8 < 128; omega⟩, flush0_10 _, ?_⟩
  rw [mem_blk]
  obtain ⟨-, -, -, -, -, -, -, -, -, -, -, -, -, -, -, -, -, -, -, -, e0, e1⟩ := idx_facts ⟨(i 0).val / 8, by show (i 0).val / 8 < 128; omega⟩
  intro a
  match a with
  | ⟨0, _⟩ => show win0_10.index _ (0 : Fin 2) * 8 ≤ (i 0).val ∧ (i 0).val < win0_10.index _ (0 : Fin 2) * 8 + 8; rw [e0]; show (i 0).val / 8 * 8 ≤ (i 0).val ∧ (i 0).val < (i 0).val / 8 * 8 + 8; omega
  | ⟨1, _⟩ => show win0_10.index _ (1 : Fin 2) * 128 ≤ (i 1).val ∧ (i 1).val < win0_10.index _ (1 : Fin 2) * 128 + 128; rw [e1]; omega

/-- The output array after the run. -/
theorem final (c : Dev nD) : (dats m 0 c).arrAt 10 cfg0.N = G m c :=
  (dats m 0 c).arrAt_eq_of_cover 10 (G m c) (fun t _ => flushed_eq m c t) (cover)

/-- Its entry at row `8 t`, column `b`: what point `t` stored at `(0, b)`. -/
theorem final_at (c : Dev nD) (t : Fin cfg0.N) (b : Fin 128) :
    (dats m 0 c).arrAt 10 cfg0.N (ix2 ⟨8 * t.val, by have := t.isLt; change t.val < 128 at this; omega⟩ b)
      = (dats m 0 c).after 10 t (ix2 (0 : Fin 8) b) := by
  rw [final]
  exact G_at m c t 0 b _ (by show 8 * t.val = t.val * 8 + 0; omega) rfl

end Cert.KernelIdeal.Blocks

end
-- ==== Proof.LibTailReads.lean ====
/-
  Reading single entries out of a tiled array, and summing half of a vector.

  An array `A` of 1024 rows and 128 columns is 128 tiles of 8 rows. Recast as `[128, 8, 128]` its entry `(t, r, c)` is
  `A (8 t + r, c)`: a recast keeps the row-major position, and `((t · 8 + r) · 128 + c) = (8 t + r) · 128 + c`. The slice
  of extents `[128, 1, 1]` at offsets `(0, 0, col)` keeps, at `(t, 0, 0)`, the entry `(t, 0, col)`; recast as a vector of
  length 128 it has that entry at position `t`, since `(t · 1 + 0) · 1 + 0 = t`. So entry `t` of the vector is
  `A (8 t, col)`: column `col` of the first row of tile `t`.

  A sum of a vector into a scalar, from an initial value, is the initial value plus the sum of all entries; the entries
  of the slice of 64 consecutive positions from `off` are `v (off + t)`, `t < 64`; and a sum over rank-1 indices is the
  sum over their one coordinate.
-/
import Idealize.ShloMosaic.Lib.ValueLayout
import Idealize.ShloMosaic.Lib.Pipeline.Value
import Idealize.ShloMosaic.Lib.ValueIdx
import Idealize.ShloMosaic.PureOps.Ideal.Laws

noncomputable section

namespace Cert.Lib.TailReads

open Idealize.ShloMosaic Idealize.ShloMosaic.ValueIdx

/-- A sum over a rank-1 index set is the sum over its one coordinate. -/
theorem sum_ix1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- Entry t of column `col` of row 0 of each 8-row tile. -/
theorem tile_entry (A : (⟨2, ![1024, 128]⟩ : Shape).Idx → EReal) (col : ℕ) (hcol : col < 128)
    (h1 : (⟨2, ![1024, 128]⟩ : Shape).ShapeCasts ⟨3, ![128, 8, 128]⟩)
    (h2 : (⟨3, ![128, 8, 128]⟩ : Shape).Slices ![0, 0, col] ⟨3, ![128, 1, 1]⟩)
    (h3 : (⟨3, ![128, 1, 1]⟩ : Shape).ShapeCasts ⟨1, ![128]⟩) (t : Fin 128) :
    shapeCast ⟨1, ![128]⟩ (extractStridedSlice ⟨3, ![128, 1, 1]⟩ ![0, 0, col] (shapeCast ⟨3, ![128, 8, 128]⟩ A h1) h2) h3 (ix1 t)
      = A (ix2 ⟨8 * t.val, by have := t.isLt; omega⟩ ⟨col, hcol⟩) := by
  -- position t of the vector is position (t, 0, 0) of the slice
  rw [shapeCast_apply _ h3 (ix1 t) (ix3 t (0 : Fin 1) (0 : Fin 1)) (by
    rw [Shape.rowMajor_val_three, Shape.rowMajor_val_one]
    show (t.val * 1 + 0) * 1 + 0 = t.val
    omega)]
  -- which is entry (t, 0, col) of the recast array
  rw [extractStridedSlice_apply ![0, 0, col] _ h2 (ix3 t (0 : Fin 1) (0 : Fin 1)) (ix3 t (0 : Fin 8) (⟨col, hcol⟩ : Fin 128))
    (fun a => match a with
      | ⟨0, _⟩ => by show t.val = 0 + t.val; omega
      | ⟨1, _⟩ => by show 0 = 0 + 0; rfl
      | ⟨2, _⟩ => by show col = col + 0; rfl)]
  -- which has the row-major position of A's entry (8 t, col)
  exact shapeCast_apply A h1 _ (ix2 ⟨8 * t.val, by have := t.isLt; omega⟩ ⟨col, hcol⟩) (by
    rw [Shape.rowMajor_val_two, Shape.rowMajor_val_three]
    show 8 * t.val * 128 + col = (t.val * 8 + 0) * 128 + col
    omega)

/-- The host's sum of 64 consecutive entries of a 128-vector from `off`. -/
theorem half_sum {φ : FTy} (v : (⟨1, ![128]⟩ : Shape).Idx → EReal) (off : ℕ) (hoff : off + 64 ≤ 128)
    (h4 : (⟨1, ![128]⟩ : Shape).Slices ![off] ⟨1, ![64]⟩)
    (h5 : (⟨1, ![64]⟩ : Shape).ReducesTo [0] ⟨0, ![]⟩) (init : (⟨0, ![]⟩ : Shape).Idx → EReal)
    (hu : 0 < (⟨0, ![]⟩ : Shape).numel) :
    Host.reduceAdd (F := Ideal) (φ := φ) (extractStridedSlice ⟨1, ![64]⟩ ![off] v h4) init h5 hu
      = fun _ => init ix0 + ∑ t : Fin 64, v (ix1 ⟨off + t.val, by have := t.isLt; omega⟩) := by
  funext j
  show Ideal.hostReduceAdd h5 (extractStridedSlice ⟨1, ![64]⟩ ![off] v h4) (init (Shape.Idx.first hu)) j = _
  rw [Ideal.hostReduceAdd_total h5 (fun b => b.elim0), eq_ix0 (Shape.Idx.first hu), sum_ix1]
  refine congrArg (fun s => init ix0 + s) (Finset.sum_congr rfl fun t _ => ?_)
  exact extractStridedSlice_apply ![off] v h4 (ix1 t) (ix1 ⟨off + t.val, by have := t.isLt; omega⟩)
    (fun a => match a with | ⟨0, _⟩ => rfl)

end Cert.Lib.TailReads

end
-- ==== Proof.KernelValue.lean ====
/-
  The kernel program's two results.

  After the region the host views the output array `[1024, 128]` as 128 tiles of 8 rows, takes entry `(0, 0)` of each
  tile (the vector `sA`) and entry `(0, 1)` (the vector `sB`), and returns
      sum sA[0:64]          and          sum sA[64:128] + sum sB[0:64].
  Tile `t` is what grid point `t` stored: for `t < 64` the sums of `sp (-z)` and of `sp z` over block `t` of the fake
  batch, for `t ≥ 64` the sum of `sp (-z)` over block `t - 64` of the real batch. Summed over the blocks these are the
  specification's two losses (`Cert.Spec.lossF_blocks`, `Cert.Spec.lossD_blocks`).
-/
import proofs.«136568_j9869834846413_2_alg».proof.Proof.KernelBlocks
import proofs.«136568_j9869834846413_2_alg».proof.Proof.LibTailReads

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.GenP Cert.KernelIdeal.Blocks Cert.Lib.TailReads

variable (m : (ℓ : Loc nD τ sig) → Buf (Elt Ideal) ℓ) (ρ : Dev nD → PrngReg)

/-! ## The host operations after the region, as functions of the output array -/

/-- Entry `(0, col)` of each of the 128 tiles. -/
def tileCol (col : ℕ) (h2 : S128x8x128.Slices ![0, 0, col] S128x1x1) (A : S1024x128.Idx → EReal) : S128.Idx → EReal :=
  shapeCast S128 (extractStridedSlice S128x1x1 ![0, 0, col] (shapeCast S128x8x128 A Facts₀.shapeCasts_S1024x128_S128x8x128) h2)
    Facts₀.shapeCasts_S128x1x1_S128

/-- The host's sum of 64 consecutive entries from `off`, started from the zero word. -/
def halfSum (off : ℕ) (h4 : S128.Slices ![off] S64) (v : S128.Idx → EReal) : S_.Idx → EReal :=
  Host.reduceAdd (F := Ideal) (φ := .f32) (extractStridedSlice S64 ![off] v h4) (constant (F := Ideal) S_ .f32 0x00000000#32)
    Facts₀.reducesTo_S64_S_d0 Facts₀.h_S_

/-- The first result as a function of the output array. -/
def resF (A : S1024x128.Idx → EReal) : S_.Idx → EReal :=
  halfSum 0 Facts₀.slices_S128_S64_0 (tileCol 0 Facts₀.slices_S128x8x128_S128x1x1_0_0_0 A)

/-- The second. -/
def resD (A : S1024x128.Idx → EReal) : S_.Idx → EReal :=
  (addf : FVec Ideal S_ .f32 → FVec Ideal S_ .f32 → FVec Ideal S_ .f32)
    (halfSum 64 Facts₀.slices_S128_S64_64 (tileCol 0 Facts₀.slices_S128x8x128_S128x1x1_0_0_0 A))
    (halfSum 0 Facts₀.slices_S128_S64_0 (tileCol 1 Facts₀.slices_S128x8x128_S128x1x1_0_0_1 A))

theorem halfSum_eq (off : ℕ) (hoff : off + 64 ≤ 128) (h4 : S128.Slices ![off] S64) (v : S128.Idx → EReal) :
    halfSum off h4 v = fun _ => ∑ t : Fin 64, v (ix1 ⟨off + t.val, by have := t.isLt; omega⟩) := by
  unfold halfSum
  rw [half_sum v off hoff]
  funext _
  show Ideal.ofBits .f32 0x00000000#32 + _ = _
  rw [Ideal.ofBits_zero_f32, zero_add]

theorem tileCol_at (col : ℕ) (hcol : col < 128) (h2 : S128x8x128.Slices ![0, 0, col] S128x1x1)
    (A : S1024x128.Idx → EReal) (t : Fin 128) :
    tileCol col h2 A (ix1 t) = A (ix2 ⟨8 * t.val, by have := t.isLt; omega⟩ ⟨col, hcol⟩) :=
  tile_entry A col hcol _ h2 _ t

/-! ## The results -/

/-- The first result is the generator's loss. -/
theorem kernel_lossF (c : Dev nD) :
    resF ((dats m 0 c).arrAt 10 cfg0.N)
      = fun _ => Cert.Spec.lossF (P m c) (Cert.Spec.rows (m ((c : Thread nD τ).loc main_arg0))) := by
  unfold resF
  rw [halfSum_eq 0 (by norm_num)]
  funext _
  rw [Cert.Spec.lossF_blocks]
  refine Finset.sum_congr rfl fun t _ => ?_
  rw [tileCol_at 0 (by norm_num)]
  have ht : 0 + t.val < 64 := by have := t.isLt; omega
  refine (final_at m c ⟨0 + t.val, by show 0 + t.val < 128; omega⟩ ⟨0, by norm_num⟩).trans ?_
  refine ((stored_fake m c ⟨0 + t.val, by show 0 + t.val < 128; omega⟩ ht).1).trans ?_
  simp only [Nat.zero_add, Fin.eta]

/-- The tiles of the grid's second half, entry `(0, 0)`: the real batch's `sp (-z)` by blocks. -/
theorem sum_real (c : Dev nD) (t : Fin 64) :
    tileCol 0 Facts₀.slices_S128x8x128_S128x1x1_0_0_0 ((dats m 0 c).arrAt 10 cfg0.N)
        (ix1 ⟨64 + t.val, by have := t.isLt; omega⟩)
      = ∑ r : Fin 1024, Cert.Spec.sp (-(Cert.Spec.logit (P m c)
          (Cert.Spec.rows (m ((c : Thread nD τ).loc main_arg1)) (Cert.Spec.row t r)))) := by
  rw [tileCol_at 0 (by norm_num)]
  have ht : 64 ≤ 64 + t.val := Nat.le_add_right _ _
  refine (final_at m c ⟨64 + t.val, by have := t.isLt; show 64 + t.val < 128; omega⟩ ⟨0, by norm_num⟩).trans ?_
  refine (stored_real m c ⟨64 + t.val, by have := t.isLt; show 64 + t.val < 128; omega⟩ ht).trans ?_
  simp only [Nat.add_sub_cancel_left, Fin.eta]

/-- The tiles of the grid's first half, entry `(0, 1)`: the fake batch's `sp z` by blocks. -/
theorem sum_fake (c : Dev nD) (t : Fin 64) :
    tileCol 1 Facts₀.slices_S128x8x128_S128x1x1_0_0_1 ((dats m 0 c).arrAt 10 cfg0.N)
        (ix1 ⟨0 + t.val, by have := t.isLt; omega⟩)
      = ∑ r : Fin 1024, Cert.Spec.sp (Cert.Spec.logit (P m c)
          (Cert.Spec.rows (m ((c : Thread nD τ).loc main_arg0)) (Cert.Spec.row t r))) := by
  rw [tileCol_at 1 (by norm_num)]
  have ht : 0 + t.val < 64 := by have := t.isLt; omega
  refine (final_at m c ⟨0 + t.val, by show 0 + t.val < 128; omega⟩ ⟨1, by norm_num⟩).trans ?_
  refine ((stored_fake m c ⟨0 + t.val, by show 0 + t.val < 128; omega⟩ ht).2).trans ?_
  simp only [Nat.zero_add, Fin.eta]

/-- The second is the discriminator's. -/
theorem kernel_lossD (c : Dev nD) :
    resD ((dats m 0 c).arrAt 10 cfg0.N)
      = fun _ => Cert.Spec.lossD (P m c) (Cert.Spec.rows (m ((c : Thread nD τ).loc main_arg0)))
          (Cert.Spec.rows (m ((c : Thread nD τ).loc main_arg1))) := by
  unfold resD
  rw [halfSum_eq 64 (by norm_num), halfSum_eq 0 (by norm_num)]
  funext _
  rw [Cert.Spec.lossD_blocks, addf_apply]
  exact congrArg₂ (· + ·) (Finset.sum_congr rfl fun t _ => sum_real m c t)
    (Finset.sum_congr rfl fun t _ => sum_fake m c t)

/-! ## The run -/

/-- What the host operations after the region leave in the first result's buffer. -/
theorem tail_v22 (c : Dev nD) :
    Pipeline.afterTail₀ cfgs (dats m) 0 (V0 m) [hostOps1] c main_v22 = resF ((dats m 0 c).arrAt 10 cfg0.N) := by
  unfold Pipeline.afterTail₀
  show StableHlo.after hostOps1 _ (Proc.devRef .tc main_v22) = _
  after_results
  rw [Pipeline.withArrays_arr spec0 launch0.win.arr_inj c _ _ 10]
  rfl

/-- … and in the second's. -/
theorem tail_v27 (c : Dev nD) :
    Pipeline.afterTail₀ cfgs (dats m) 0 (V0 m) [hostOps1] c main_v27 = resD ((dats m 0 c).arrAt 10 cfg0.N) := by
  unfold Pipeline.afterTail₀
  show StableHlo.after hostOps1 _ (Proc.devRef .tc main_v27) = _
  after_results
  rw [Pipeline.withArrays_arr spec0 launch0.win.arr_inj c _ _ 10]
  rfl

/-- The kernel program's run: every weakly fair execution terminates with the two results at the specification's
    losses of the argument arrays, and the arguments unchanged. -/
theorem run : θ_run defs (onTc (τ := τ) (main (F := Ideal))) ⟨m, fun _ => 0, ρ⟩ (fun r => ∀ c : Dev nD,
      r.2.mem ((c.tc : Thread nD τ).loc main_v22)
        = (fun _ => Cert.Spec.lossF (P m c) (Cert.Spec.rows (m ((c : Thread nD τ).loc main_arg0))))
      ∧ r.2.mem ((c.tc : Thread nD τ).loc main_v27)
        = (fun _ => Cert.Spec.lossD (P m c) (Cert.Spec.rows (m ((c : Thread nD τ).loc main_arg0)))
            (Cert.Spec.rows (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v22 (Pipeline.mem_restRefs_of main_v22 (by decide) (by decide))).trans ((tail_v22 m c).trans (kernel_lossF m c)),
      ((h c).2 main_v27 (Pipeline.mem_restRefs_of main_v27 (by decide) (by decide))).trans ((tail_v27 m c).trans (kernel_lossD m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.KValue

end
-- ==== Proof.RefValue.lean ====
/-
  The reference program computes the specification's two losses.

  The reference applies, to each of the two batches, three times "matrix product, add the bias row, maximum with 0" and
  then once "matrix product, add the bias", keeps column 0, and sums a stable form of log (1 + exp ·) of the logits over
  the 65536 rows. Read at an index, every step is the extended reals' own operation on the operands at an index, so:

  * the stage after the first maximum, at row n and column j, is max ((∑ k, x n k * W1 k j) + b1 j) 0, the
    specification's act of row n; the second and third hidden stages are act of the previous stage's row n, and the
    reshaped output stage at n is (∑ k, h3 n k * W4 k 0) + b4 0, the specification's logit of row n. The only work
    is to identify the index functions the operations read their operands through with indices built from coordinates;
  * the second batch runs through the same operations, so its stages are the first batch's stages as functions of the batch;
  * the softplus the reference calls is  select (a - 0 ≠ a - 0) (a + 0) (max a 0 + log1p (exp (-|a - 0|))).  On the
    extended reals  a ≠ a  is false, so the select takes its last operand, a - 0 = a, and |a| = max a (-a): this is sp a;
  * a sum into a scalar is the initial value 0 plus the sum over all rank-1 indices, and a sum over rank-1 indices is the
    sum over their one coordinate.
  Put together, the first result is ∑ n, sp (-logit (x̂ n)) and the second is ∑ n, (sp (-logit (x n)) + sp (logit (x̂ n))).
-/
import proofs.«136568_j9869834846413_2_alg».proof.Proof.Spec
import proofs.«136568_j9869834846413_2_alg».proof.Proof.Gen.ReferenceIdeal.Read

noncomputable section

namespace Cert.ReferenceIdeal.RefValue

open Idealize.ShloMosaic Idealize.ShloMosaic.ValueIdx Cert.ReferenceIdeal Cert.ReferenceIdeal.Read

/-! ## Sums over rank-1 indices, and the softplus on the extended reals -/

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- The absolute value on the extended reals. -/
theorem absf_eq (x : Ideal .f32) : FloatOps.absf x = max x (-x) := rfl

/-- No extended real differs from itself: the comparison's bit is `0`. -/
theorem cmp_une_self (a : Ideal .f32) : FloatOps.cmpf .une a a = 0#1 := by
  show Ideal.cmp .une a a = 0#1
  unfold Ideal.cmp
  simp

/-- The reference's softplus at an extended real `a` is `sp a`. -/
theorem softplus_eq (a : Ideal .f32) :
    Scalar.select
        (FloatOps.cmpf .une (FloatOps.subf a (FloatOps.ofBits .f32 0x00000000#32))
          (FloatOps.subf a (FloatOps.ofBits .f32 0x00000000#32)))
        (FloatOps.addf a (FloatOps.ofBits .f32 0x00000000#32))
        (FloatOps.addf (FloatOps.maximumf a (FloatOps.ofBits .f32 0x00000000#32))
          (FloatOps.hostUnary .log1p (FloatOps.hostUnary .exp
            (FloatOps.hostNegf (FloatOps.hostAbsf (FloatOps.subf a (FloatOps.ofBits .f32 0x00000000#32)))))))
      = Spec.sp a := by
  rw [cmp_une_self, select_zero]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    absf_eq, sub_zero]
  rfl

/-! ## The index functions of the operations, at indices built from coordinates -/

theorem lidx_v0 (n : Fin 65536) (j : Fin 1000) (k : Fin 512) : lidx_main_v0 (ix2 n j) k = ix2 n k := by
  funext a; match a with | ⟨0, _⟩ => rfl | ⟨1, _⟩ => rfl
theorem ridx_v0 (n : Fin 65536) (j : Fin 1000) (k : Fin 512) : ridx_main_v0 (ix2 n j) k = ix2 k j := by
  funext a; match a with | ⟨0, _⟩ => rfl | ⟨1, _⟩ => rfl
theorem bidx_v2 (n : Fin 65536) (j : Fin 1000) : idx_main_v1 (idx_main_v2 (ix2 n j)) = ix1 j := by
  funext a; match a with | ⟨0, _⟩ => rfl
theorem lidx_v5 (n : Fin 65536) (j : Fin 500) (k : Fin 1000) : lidx_main_v5 (ix2 n j) k = ix2 n k := by
  funext a; match a with | ⟨0, _⟩ => rfl | ⟨1, _⟩ => rfl
theorem ridx_v5 (n : Fin 65536) (j : Fin 500) (k : Fin 1000) : ridx_main_v5 (ix2 n j) k = ix2 k j := by
  funext a; match a with | ⟨0, _⟩ => rfl | ⟨1, _⟩ => rfl
theorem bidx_v7 (n : Fin 65536) (j : Fin 500) : idx_main_v6 (idx_main_v7 (ix2 n j)) = ix1 j := by
  funext a; match a with | ⟨0, _⟩ => rfl
theorem lidx_v10 (n : Fin 65536) (j : Fin 250) (k : Fin 500) : lidx_main_v10 (ix2 n j) k = ix2 n k := by
  funext a; match a with | ⟨0, _⟩ => rfl | ⟨1, _⟩ => rfl
theorem ridx_v10 (n : Fin 65536) (j : Fin 250) (k : Fin 500) : ridx_main_v10 (ix2 n j) k = ix2 k j := by
  funext a; match a with | ⟨0, _⟩ => rfl | ⟨1, _⟩ => rfl
theorem bidx_v12 (n : Fin 65536) (j : Fin 250) : idx_main_v11 (idx_main_v12 (ix2 n j)) = ix1 j := by
  funext a; match a with | ⟨0, _⟩ => rfl
theorem lidx_v15 (n : Fin 65536) (j : Fin 1) (k : Fin 250) : lidx_main_v15 (ix2 n j) k = ix2 n k := by
  funext a; match a with | ⟨0, _⟩ => rfl | ⟨1, _⟩ => rfl
theorem ridx_v15 (n : Fin 65536) (j : Fin 1) (k : Fin 250) : ridx_main_v15 (ix2 n j) k = ix2 k j := by
  funext a; match a with | ⟨0, _⟩ => rfl | ⟨1, _⟩ => rfl
theorem bidx_v17 (n : Fin 65536) (j : Fin 1) : idx_main_v16 (idx_main_v17 (ix2 n j)) = ix1 0 := by
  funext a; match a with | ⟨0, _⟩ => rfl
/-- The reshape `[65536, 1] → [65536]` reads row `n`, column `0`. -/
theorem idx_v19 (n : Fin 65536) : idx_main_v19 (ix1 n) = ix2 n 0 := by
  funext a; match a with | ⟨0, _⟩ => exact Fin.ext (Nat.div_one _) | ⟨1, _⟩ => rfl

/-! ## The four layers of one batch -/

section Tower

variable (X : (⟨S65536x512, .f32⟩ : BufTy).Contents (Elt Ideal))
  (x2 : (⟨S512x1000, .f32⟩ : BufTy).Contents (Elt Ideal)) (x3 : (⟨S1000, .f32⟩ : BufTy).Contents (Elt Ideal))
  (x4 : (⟨S1000x500, .f32⟩ : BufTy).Contents (Elt Ideal)) (x5 : (⟨S500, .f32⟩ : BufTy).Contents (Elt Ideal))
  (x6 : (⟨S500x250, .f32⟩ : BufTy).Contents (Elt Ideal)) (x7 : (⟨S250, .f32⟩ : BufTy).Contents (Elt Ideal))
  (x8 : (⟨S250x1, .f32⟩ : BufTy).Contents (Elt Ideal)) (x9 : (⟨S1, .f32⟩ : BufTy).Contents (Elt Ideal))

/-- The first hidden stage at row `n`, column `j`. -/
theorem layer1 (n : Fin 65536) (j : Fin 1000) :
    val_main_v4 (F := Ideal) X x2 x3 (ix2 n j) = Spec.act (Spec.rows X n) (fun k j => x2 (ix2 k j)) (fun j => x3 (ix1 j)) j := by
  rw [val_main_v4_apply, val_main_v3_apply, val_main_v0_apply, val_main_v2_apply, val_main_v1_apply,
    val_main_call0_v0_apply, val_main_call0_cst_apply, bidx_v2]
  have hs : (∑ k : Fin 512, X (lidx_main_v0 (ix2 n j) k) * x2 (ridx_main_v0 (ix2 n j) k))
      = ∑ k : Fin 512, X (ix2 n k) * x2 (ix2 k j) :=
    Finset.sum_congr rfl fun k _ => by rw [lidx_v0, ridx_v0]
  rw [hs, Ideal.maximumf_def, Ideal.addf_def, Ideal.ofBits_def, Ideal.ofBits_zero_f32]
  rfl

/-- The second hidden stage at row `n`, column `j`. -/
theorem layer2 (n : Fin 65536) (j : Fin 500) :
    val_main_v9 (F := Ideal) X x2 x3 x4 x5 (ix2 n j)
      = Spec.act (Spec.act (Spec.rows X n) (fun k j => x2 (ix2 k j)) (fun j => x3 (ix1 j)))
        (fun k j => x4 (ix2 k j)) (fun j => x5 (ix1 j)) j := by
  rw [val_main_v9_apply, val_main_v8_apply, val_main_v5_apply, val_main_v7_apply, val_main_v6_apply,
    val_main_call1_v0_apply, val_main_call1_cst_apply, bidx_v7]
  have hs : (∑ k : Fin 1000, val_main_v4 (F := Ideal) X x2 x3 (lidx_main_v5 (ix2 n j) k) * x4 (ridx_main_v5 (ix2 n j) k))
      = ∑ k : Fin 1000, Spec.act (Spec.rows X n) (fun k j => x2 (ix2 k j)) (fun j => x3 (ix1 j)) k * x4 (ix2 k j) :=
    Finset.sum_congr rfl fun k _ => by rw [lidx_v5, ridx_v5, layer1]
  rw [hs, Ideal.maximumf_def, Ideal.addf_def, Ideal.ofBits_def, Ideal.ofBits_zero_f32]
  rfl

/-- The third hidden stage at row `n`, column `j`. -/
theorem layer3 (n : Fin 65536) (j : Fin 250) :
    val_main_v14 (F := Ideal) X x2 x3 x4 x5 x6 x7 (ix2 n j)
      = Spec.act (Spec.act (Spec.act (Spec.rows X n) (fun k j => x2 (ix2 k j)) (fun j => x3 (ix1 j)))
        (fun k j => x4 (ix2 k j)) (fun j => x5 (ix1 j)))
        (fun k j => x6 (ix2 k j)) (fun j => x7 (ix1 j)) j := by
  rw [val_main_v14_apply, val_main_v13_apply, val_main_v10_apply, val_main_v12_apply, val_main_v11_apply,
    val_main_call2_v0_apply, val_main_call2_cst_apply, bidx_v12]
  have hs : (∑ k : Fin 500, val_main_v9 (F := Ideal) X x2 x3 x4 x5 (lidx_main_v10 (ix2 n j) k) * x6 (ridx_main_v10 (ix2 n j) k))
      = ∑ k : Fin 500, Spec.act (Spec.act (Spec.rows X n) (fun k j => x2 (ix2 k j)) (fun j => x3 (ix1 j)))
        (fun k j => x4 (ix2 k j)) (fun j => x5 (ix1 j)) k * x6 (ix2 k j) :=
    Finset.sum_congr rfl fun k _ => by rw [lidx_v10, ridx_v10, layer2]
  rw [hs, Ideal.maximumf_def, Ideal.addf_def, Ideal.ofBits_def, Ideal.ofBits_zero_f32]
  rfl

/-- The logit stage at row `n` is the specification's logit of row `n`. -/
theorem logit_row (n : Fin 65536) :
    val_main_v19 (F := Ideal) X x2 x3 x4 x5 x6 x7 x8 x9 (ix1 n)
      = Spec.logit (Spec.params x2 x3 x4 x5 x6 x7 x8 x9) (Spec.rows X n) := by
  rw [val_main_v19_apply, idx_v19, val_main_v18_apply, val_main_v15_apply, val_main_v17_apply, val_main_v16_apply,
    bidx_v17]
  have hs : (∑ k : Fin 250, val_main_v14 (F := Ideal) X x2 x3 x4 x5 x6 x7 (lidx_main_v15 (ix2 n 0) k) * x8 (ridx_main_v15 (ix2 n 0) k))
      = ∑ k : Fin 250, Spec.act (Spec.act (Spec.act (Spec.rows X n) (fun k j => x2 (ix2 k j)) (fun j => x3 (ix1 j)))
        (fun k j => x4 (ix2 k j)) (fun j => x5 (ix1 j)))
        (fun k j => x6 (ix2 k j)) (fun j => x7 (ix1 j)) k * x8 (ix2 k 0) :=
    Finset.sum_congr rfl fun k _ => by rw [lidx_v15, ridx_v15, layer3]
  rw [hs, Ideal.addf_def]
  rfl

/-- The second batch runs through the same operations: its logit stage is the first batch's, as a function of the batch. -/
theorem tower2 :
    val_main_v39 (F := Ideal) X x2 x3 x4 x5 x6 x7 x8 x9 = val_main_v19 (F := Ideal) X x2 x3 x4 x5 x6 x7 x8 x9 := rfl

/-! ## The three softplus stages -/

/-- The softplus of the negated logits of the first batch. -/
theorem v41_at (i : S65536.Idx) :
    val_main_v41 (F := Ideal) X x2 x3 x4 x5 x6 x7 x8 x9 i = Spec.sp (-(val_main_v19 (F := Ideal) X x2 x3 x4 x5 x6 x7 x8 x9 i)) := by
  simp only [val_main_v41_apply, val_main_call6_v4_apply, val_main_call6_v6_apply, val_main_call6_v11_apply,
    val_main_call6_v1_apply, val_main_call6_v10_apply, val_main_call6_v9_apply, val_main_call6_v8_apply,
    val_main_call6_v7_apply, val_main_call6_v3_apply, val_main_call6_v0_apply, val_main_call6_v2_apply,
    val_main_call6_v5_apply, val_main_call6_cst_apply, val_main_v40_apply]
  exact softplus_eq _

/-- The softplus of the negated logits of the second batch. -/
theorem v44_at (i : S65536.Idx) :
    val_main_v44 (F := Ideal) X x2 x3 x4 x5 x6 x7 x8 x9 i = Spec.sp (-(val_main_v39 (F := Ideal) X x2 x3 x4 x5 x6 x7 x8 x9 i)) := by
  simp only [val_main_v44_apply, val_main_call7_v4_apply, val_main_call7_v6_apply, val_main_call7_v11_apply,
    val_main_call7_v1_apply, val_main_call7_v10_apply, val_main_call7_v9_apply, val_main_call7_v8_apply,
    val_main_call7_v7_apply, val_main_call7_v3_apply, val_main_call7_v0_apply, val_main_call7_v2_apply,
    val_main_call7_v5_apply, val_main_call7_cst_apply, val_main_v43_apply]
  exact softplus_eq _

/-- The softplus of the logits of the first batch. -/
theorem v45_at (i : S65536.Idx) :
    val_main_v45 (F := Ideal) X x2 x3 x4 x5 x6 x7 x8 x9 i = Spec.sp (val_main_v19 (F := Ideal) X x2 x3 x4 x5 x6 x7 x8 x9 i) := by
  simp only [val_main_v45_apply, val_main_call8_v4_apply, val_main_call8_v6_apply, val_main_call8_v11_apply,
    val_main_call8_v1_apply, val_main_call8_v10_apply, val_main_call8_v9_apply, val_main_call8_v8_apply,
    val_main_call8_v7_apply, val_main_call8_v3_apply, val_main_call8_v0_apply, val_main_call8_v2_apply,
    val_main_call8_v5_apply, val_main_call8_cst_apply]
  exact softplus_eq _

end Tower

/-! ## The two results -/

/-- The first result is the generator's loss of the batch `x0`. -/
theorem ref_lossF (x0 : (⟨S65536x512, .f32⟩ : BufTy).Contents (Elt Ideal)) (x2 : (⟨S512x1000, .f32⟩ : BufTy).Contents (Elt Ideal)) (x3 : (⟨S1000, .f32⟩ : BufTy).Contents (Elt Ideal)) (x4 : (⟨S1000x500, .f32⟩ : BufTy).Contents (Elt Ideal)) (x5 : (⟨S500, .f32⟩ : BufTy).Contents (Elt Ideal)) (x6 : (⟨S500x250, .f32⟩ : BufTy).Contents (Elt Ideal)) (x7 : (⟨S250, .f32⟩ : BufTy).Contents (Elt Ideal)) (x8 : (⟨S250x1, .f32⟩ : BufTy).Contents (Elt Ideal)) (x9 : (⟨S1, .f32⟩ : BufTy).Contents (Elt Ideal)) :
    val_main_v42 (F := Ideal) x0 x2 x3 x4 x5 x6 x7 x8 x9 = fun _ => Cert.Spec.lossF (Cert.Spec.params x2 x3 x4 x5 x6 x7 x8 x9) (Cert.Spec.rows x0) := by
  funext i
  rw [val_main_v42_apply, val_main_cst_apply, Ideal.ofBits_def, Ideal.ofBits_zero_f32, zero_add, sum_idx1]
  unfold Cert.Spec.lossF
  refine Finset.sum_congr rfl fun n _ => ?_
  rw [v41_at, logit_row]

/-- The second result is the discriminator's loss of the batches `x0` (generated) and `x1` (real). -/
theorem ref_lossD (x0 x1 : (⟨S65536x512, .f32⟩ : BufTy).Contents (Elt Ideal)) (x2 : (⟨S512x1000, .f32⟩ : BufTy).Contents (Elt Ideal)) (x3 : (⟨S1000, .f32⟩ : BufTy).Contents (Elt Ideal)) (x4 : (⟨S1000x500, .f32⟩ : BufTy).Contents (Elt Ideal)) (x5 : (⟨S500, .f32⟩ : BufTy).Contents (Elt Ideal)) (x6 : (⟨S500x250, .f32⟩ : BufTy).Contents (Elt Ideal)) (x7 : (⟨S250, .f32⟩ : BufTy).Contents (Elt Ideal)) (x8 : (⟨S250x1, .f32⟩ : BufTy).Contents (Elt Ideal)) (x9 : (⟨S1, .f32⟩ : BufTy).Contents (Elt Ideal)) :
    val_main_v47 (F := Ideal) x0 x1 x2 x3 x4 x5 x6 x7 x8 x9 = fun _ => Cert.Spec.lossD (Cert.Spec.params x2 x3 x4 x5 x6 x7 x8 x9) (Cert.Spec.rows x0) (Cert.Spec.rows x1) := by
  funext i
  rw [val_main_v47_apply, val_main_cst_0_apply, Ideal.ofBits_def, Ideal.ofBits_zero_f32, zero_add, sum_idx1]
  unfold Cert.Spec.lossD
  refine Finset.sum_congr rfl fun n _ => ?_
  rw [val_main_v46_apply, Ideal.addf_def, v44_at, v45_at, tower2, logit_row, logit_row]

end Cert.ReferenceIdeal.RefValue

end
-- ==== Proof.lean ====
/-
  A fused discriminator loss against its plain reference: the two programs return the same two numbers over the
  extended reals.

  Both programs run a discriminator — three hidden layers `max (x · W + b) 0` of widths 1000, 500, 250 and one output
  unit — on the 65536 rows of a fake batch x̂ and of a real batch x, and return
      loss_F = ∑ n, sp (-z (x̂ n))          loss_D = ∑ n, (sp (-z (x n)) + sp (z (x̂ n))),
  `z` a row's logit and `sp a = max a 0 + log1p (exp (-|a|))` (proof/Proof/Spec.lean).

  The reference does this literally (proof/Proof/RefValue.lean, over its generated run). The kernel zero-pads the hidden
  widths to 1024, 512, 256 and the output width to 128, runs a grid of 128 points over tiles of 1024 rows — the fake
  batch's 64 tiles, then the real batch's 64 —, stores per point the tile's two partial sums, and the host adds the
  partial sums up. Three facts make the two sides equal, none of which needs the inputs to be finite:
  * a padded weight is `0`, `a * 0 = 0` for every extended real, and `max 0 0 = 0`: padding does not change a logit
    (`Cert.Spec.logitP_eq`);
  * the kernel's guarded form of `log (1 + exp ·)` and the reference's are the same function: the guard `a ≠ a` never
    fires, `a - 0 = a`, `0 - b = -b`;
  * `+` on the extended reals is commutative and associative: a sum over 65536 rows is the sum over the blocks of the
    blocks' sums, and a sum of sums of two terms is the sum of the two sums (`Cert.Spec.lossF_blocks`, `lossD_blocks`).
  The kernel's side is read off its frame run: the arrays the region finds (proof/Proof/KernelHost.lean), what the body
  stores at a point (KernelBody.lean, over KernelLayer.lean and KernelSoftplus.lean), the blocks and the output array
  (KernelBlocks.lean), and the host's sums after the region (KernelValue.lean).
-/
import proofs.«136568_j9869834846413_2_alg».proof.Defs
import proofs.«136568_j9869834846413_2_alg».proof.Proof.Gen.Kernel
import proofs.«136568_j9869834846413_2_alg».proof.Proof.Gen.Kernel.Skeleton
import proofs.«136568_j9869834846413_2_alg».proof.Proof.Gen.Kernel.Launch
import proofs.«136568_j9869834846413_2_alg».proof.Proof.Gen.Kernel.Points
import proofs.«136568_j9869834846413_2_alg».proof.Proof.FrameKernel
import proofs.«136568_j9869834846413_2_alg».proof.Proof.Gen.KernelIdeal
import proofs.«136568_j9869834846413_2_alg».proof.Proof.Gen.KernelIdeal.Skeleton
import proofs.«136568_j9869834846413_2_alg».proof.Proof.Gen.KernelIdeal.Launch
import proofs.«136568_j9869834846413_2_alg».proof.Proof.Gen.KernelIdeal.Points
import proofs.«136568_j9869834846413_2_alg».proof.Proof.FrameKernelIdeal
import proofs.«136568_j9869834846413_2_alg».proof.Proof.Gen.ReferenceIdeal
import proofs.«136568_j9869834846413_2_alg».proof.Proof.Gen.Pre_finite_inputs
import proofs.«136568_j9869834846413_2_alg».proof.Proof.Gen.ReferenceIdeal.Run
import proofs.«136568_j9869834846413_2_alg».proof.Proof.Gen.ReferenceIdeal.Read
import proofs.«136568_j9869834846413_2_alg».proof.Proof.KernelValue
import proofs.«136568_j9869834846413_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.GenP.frame m ρ

/-- So does the kernel at the exact values. -/
theorem frame_ki : Cert.frame_KernelIdeal := fun m ρ _ => Cert.KernelIdeal.GenP.frame m ρ

/-- So does the reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the exact values both programs end with the specification's two losses of the arguments. -/
theorem algebraic : Cert.algebraic_KernelIdeal_ReferenceIdeal := by
  intro m ρ m' ρ' _ hagree
  refine ⟨fun c => fun _ => Cert.Spec.lossF (Cert.KernelIdeal.Blocks.P m c)
      (Cert.Spec.rows (m ((c.tc : Thread Cert.KernelIdeal.nD Cert.KernelIdeal.τ).loc Cert.KernelIdeal.main_arg0))),
    fun c => fun _ => Cert.Spec.lossD (Cert.KernelIdeal.Blocks.P m c)
      (Cert.Spec.rows (m ((c.tc : Thread Cert.KernelIdeal.nD Cert.KernelIdeal.τ).loc Cert.KernelIdeal.main_arg0)))
      (Cert.Spec.rows (m ((c.tc : Thread Cert.KernelIdeal.nD Cert.KernelIdeal.τ).loc Cert.KernelIdeal.main_arg1))),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v42_eq, Cert.ReferenceIdeal.RefValue.ref_lossF, a0, a2, a3, a4, a5, a6, a7, a8, a9]
    rfl
  · obtain ⟨a0, a1, a2, a3, a4, a5, a6, a7, a8, a9⟩ := hagree c
    rw [Cert.ReferenceIdeal.Read.val_main_v47_eq, Cert.ReferenceIdeal.RefValue.ref_lossD, a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
